-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S32x256 : Shape := ⟨2, ![32, 256]⟩
abbrev S32 : Shape := ⟨1, ![32]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S64x4096x256 .f32) (main_arg1 : FVec F S32x256 .f32) (main_arg2 : FVec F S32 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S64x4096x256 : Shape := ⟨3, ![64, 4096, 256]⟩
abbrev S32x256 : Shape := ⟨2, ![32, 256]⟩
abbrev S32 : Shape := ⟨1, ![32]⟩
abbrev S1x32 : Shape := ⟨2, ![1, 32]⟩
abbrev S_ : Shape := ⟨0, ![]⟩
abbrev S64x32x256 : Shape := ⟨3, ![64, 32, 256]⟩
abbrev S2x4096x256 : Shape := ⟨3, ![2, 4096, 256]⟩
abbrev S2x32x256 : Shape := ⟨3, ![2, 32, 256]⟩
abbrev S1x4096x256 : Shape := ⟨3, ![1, 4096, 256]⟩
abbrev S4096x256 : Shape := ⟨2, ![4096, 256]⟩
abbrev S4096 : Shape := ⟨1, ![4096]⟩
abbrev S4096x1 : Shape := ⟨2, ![4096, 1]⟩
abbrev S4096x32 : Shape := ⟨2, ![4096, 32]⟩
abbrev S32x1 : Shape := ⟨2, ![32, 1]⟩
abbrev S1x32x256 : Shape := ⟨3, ![1, 32, 256]⟩

abbrev nBuf : Space → Nat
  | .hbm => 10
  | .vmem => 8
  | .smem => 0
  | _ => 0

abbrev bufTy : (tb : Table) → Fin (tcTables nBuf tb) → BufTy
  | .hbm, ⟨0, _⟩ => ⟨S64x4096x256, .f32⟩
  | .hbm, ⟨1, _⟩ => ⟨S32x256, .f32⟩
  | .hbm, ⟨2, _⟩ => ⟨S32, .f32⟩
  | .hbm, ⟨3, _⟩ => ⟨S1x32, .f32⟩
  | .hbm, ⟨4, _⟩ => ⟨S32x256, .f32⟩
  | .hbm, ⟨5, _⟩ => ⟨S_, .f32⟩
  | .hbm, ⟨6, _⟩ => ⟨S32, .f32⟩
  | .hbm, ⟨7, _⟩ => ⟨S1x32, .f32⟩
  | .hbm, ⟨8, _⟩ => ⟨S32x256, .bf16⟩
  | .hbm, ⟨9, _⟩ => ⟨S64x32x256, .f32⟩
  | .local _ .vmem, ⟨0, _⟩ => ⟨S2x4096x256, .f32⟩
  | .local _ .vmem, ⟨1, _⟩ => ⟨S2x4096x256, .f32⟩
  | .local _ .vmem, ⟨2, _⟩ => ⟨S32x256, .f32⟩
  | .local _ .vmem, ⟨3, _⟩ => ⟨S32x256, .bf16⟩
  | .local _ .vmem, ⟨4, _⟩ => ⟨S1x32, .f32⟩
  | .local _ .vmem, ⟨5, _⟩ => ⟨S1x32, .f32⟩
  | .local _ .vmem, ⟨6, _⟩ => ⟨S2x32x256, .f32⟩
  | .local _ .vmem, ⟨7, _⟩ => ⟨S2x32x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v7 : BitVec 32 := Scalar.addi c0_i32 c2_i32
  let c1_i32 : BitVec 32 := 1#32
  ⟨c0_i32, v7, c1_i32⟩
def k0_off1 (k0_t1 : Fin k0_t1_loop.trips) : Fin 3 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v8 : BitVec 32 := Scalar.muli arg7 c1_i32_8
  let v9 : BitVec 32 := Scalar.addi c0_i32_9 v8
  let v10 : Index := Scalar.indexCast v9
  let c0_10 : Index := 0#32
  let c0_11 : Index := 0#32
  ![v10.toNat, 0, 0]
def k0_off2 (k0_t1 : Fin k0_t1_loop.trips) : Fin 3 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v8 : BitVec 32 := Scalar.muli arg7 c1_i32_8
  let v9 : BitVec 32 := Scalar.addi c0_i32_9 v8
  let v47 : Index := Scalar.indexCast v9
  let c0_20 : Index := 0#32
  let c0_21 : Index := 0#32
  ![v47.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  reducesTo_S32x256_S32_d1 : S32x256.ReducesTo [1] S32
  h_S_ : 0 < S_.numel
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x32_S1x32_0_0 : ∀ a, (![0, 0] : Fin 2 → Nat) a + S1x32.size a ≤ S1x32.size a
  h_S1x32 : 0 < S1x32.numel
  shapeCasts_S1x32_S1x32 : S1x32.ShapeCasts S1x32
  h_S1x4096x256 : 0 < S1x4096x256.numel
  shapeCasts_S1x4096x256_S4096x256 : S1x4096x256.ShapeCasts S4096x256
  reduces_S4096x256_S4096 : S4096x256.Reduces [1] S4096
  shapeCasts_S4096_S4096x1 : S4096.ShapeCasts S4096x1
  broadcasts_S4096x1_S4096x32 : S4096x1.Broadcasts S4096x32
  broadcasts_S1x32_S4096x32 : S1x32.Broadcasts S4096x32
  reduces_S4096x32_S4096 : S4096x32.Reduces [1] S4096
  reduces_S4096x32_S32 : S4096x32.Reduces [0] S32
  transposes_S1x32_p1_0_S32x1 : S1x32.Transposes [1, 0] S32x1
  broadcasts_S32x1_S32x256 : S32x1.Broadcasts S32x256
  h_S1x32x256 : 0 < S1x32x256.numel
  shapeCasts_S1x32x256_S32x256 : S1x32x256.ShapeCasts S32x256
  shapeCasts_S32x256_S1x32x256 : S32x256.ShapeCasts S1x32x256
  dot_S4096x256_S32x256_S4096x32_1_1_0_0_n_n_wf : DotDims.WF S4096x256 S32x256 S4096x32 [1] [1] [0] [0] [] []
  dot_S4096x32_S4096x256_S32x256_0_0_1_1_n_n_wf : DotDims.WF S4096x32 S4096x256 S32x256 [0] [0] [1] [1] [] []
  hrank0 : 0 < grid0.rank
  k0_t1_ok : k0_t1_loop.OK
  k0_off1_inb : ∀ k0_t1 : Fin k0_t1_loop.trips, ∀ a, (k0_off1 k0_t1) a + S1x4096x256.size a ≤ S2x4096x256.size a
  k0_off2_inb : ∀ k0_t1 : Fin k0_t1_loop.trips, ∀ a, (k0_off2 k0_t1) a + S1x32x256.size a ≤ S2x32x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S64x4096x256.size a
  hwx0_0 : ∀ i : grid0.Coords, EltTy.bits .f32 = 32 ∨ (Rect.block (s := S64x4096x256) S2x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x32x256.size a ≤ S64x32x256.size a
  hwx0_5 : ∀ i : grid0.Coords, EltTy.bits .f32 = 32 ∨ (Rect.block (s := S64x32x256) S2x32x256.size (cc0_transform_5 i) (hinb0_5 i)).WholeWords (EltTy.packing .f32)

variable [Facts₀]

def dot_S4096x256_S32x256_S4096x32_1_1_0_0_n_n : DotDims S4096x256 S32x256 S4096x32 where
  lhsContracting := [1]
  rhsContracting := [1]
  lhsNonContracting := [0]
  rhsNonContracting := [0]
  lhsBatch := []
  rhsBatch := []
  wf := dot_S4096x256_S32x256_S4096x32_1_1_0_0_n_n_wf
def dot_S4096x32_S4096x256_S32x256_0_0_1_1_n_n : DotDims S4096x32 S4096x256 S32x256 where
  lhsContracting := [0]
  rhsContracting := [0]
  lhsNonContracting := [1]
  rhsNonContracting := [1]
  lhsBatch := []
  rhsBatch := []
  wf := dot_S4096x32_S4096x256_S32x256_0_0_1_1_n_n_wf

abbrev win0_0 : Pipeline.Window sig grid0 :=
  Pipeline.Window.ofSpec (Memref.whole main_arg0) S2x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2x32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S32x256 : Shape := ⟨2, ![32, 256]⟩
abbrev S32 : Shape := ⟨1, ![32]⟩
abbrev S_ : Shape := ⟨0, ![]⟩
abbrev S64x4096 : Shape := ⟨2, ![64, 4096]⟩
abbrev S64x4096x1 : Shape := ⟨3, ![64, 4096, 1]⟩
abbrev S64x4096x32 : Shape := ⟨3, ![64, 4096, 32]⟩
abbrev S1x1x32 : Shape := ⟨3, ![1, 1, 32]⟩
abbrev S64x32x256 : Shape := ⟨3, ![64, 32, 256]⟩
abbrev S64x32 : Shape := ⟨2, ![64, 32]⟩
abbrev S64x32x1 : Shape := ⟨3, ![64, 32, 1]⟩
abbrev S1x32x256 : Shape := ⟨3, ![1, 32, 256]⟩

abbrev nBuf : Space → Nat
  | .hbm => 46
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S32x256, .f32⟩
  | .hbm, ⟨2, _⟩ => ⟨S32, .f32⟩
  | .hbm, ⟨3, _⟩ => ⟨S64x4096x256, .f32⟩
  | .hbm, ⟨4, _⟩ => ⟨S_, .f32⟩
  | .hbm, ⟨5, _⟩ => ⟨S64x4096, .f32⟩
  | .hbm, ⟨6, _⟩ => ⟨S64x4096x1, .f32⟩
  | .hbm, ⟨7, _⟩ => ⟨S32x256, .f32⟩
  | .hbm, ⟨8, _⟩ => ⟨S_, .f32⟩
  | .hbm, ⟨9, _⟩ => ⟨S32, .f32⟩
  | .hbm, ⟨10, _⟩ => ⟨S64x4096x32, .f32⟩
  | .hbm, ⟨11, _⟩ => ⟨S_, .f32⟩
  | .hbm, ⟨12, _⟩ => ⟨S64x4096x32, .f32⟩
  | .hbm, ⟨13, _⟩ => ⟨S64x4096x32, .f32⟩
  | .hbm, ⟨14, _⟩ => ⟨S64x4096x32, .f32⟩
  | .hbm, ⟨15, _⟩ => ⟨S64x4096x32, .f32⟩
  | .hbm, ⟨16, _⟩ => ⟨S1x1x32, .f32⟩
  | .hbm, ⟨17, _⟩ => ⟨S64x4096x32, .f32⟩
  | .hbm, ⟨18, _⟩ => ⟨S64x4096x32, .f32⟩
  | .hbm, ⟨19, _⟩ => ⟨S32, .f32⟩
  | .hbm, ⟨20, _⟩ => ⟨S1x1x32, .f32⟩
  | .hbm, ⟨21, _⟩ => ⟨S64x4096x32, .f32⟩
  | .hbm, ⟨22, _⟩ => ⟨S64x4096x32, .f32⟩
  | .hbm, ⟨23, _⟩ => ⟨S_, .f32⟩
  | .hbm, ⟨24, _⟩ => ⟨S64x4096, .f32⟩
  | .hbm, ⟨25, _⟩ => ⟨S_, .f32⟩
  | .hbm, ⟨26, _⟩ => ⟨S64x4096, .f32⟩
  | .hbm, ⟨27, _⟩ => ⟨S64x4096, .f32⟩
  | .hbm, ⟨28, _⟩ => ⟨S64x4096x1, .f32⟩
  | .hbm, ⟨29, _⟩ => ⟨S64x4096x32, .f32⟩
  | .hbm, ⟨30, _⟩ => ⟨S64x4096x32, .f32⟩
  | .hbm, ⟨31, _⟩ => ⟨S64x4096x32, .f32⟩
  | .hbm, ⟨32, _⟩ => ⟨S_, .f32⟩
  | .hbm, ⟨33, _⟩ => ⟨S64x4096, .f32⟩
  | .hbm, ⟨34, _⟩ => ⟨S64x4096x1, .f32⟩
  | .hbm, ⟨35, _⟩ => ⟨S64x4096x32, .f32⟩
  | .hbm, ⟨36, _⟩ => ⟨S64x4096x32, .f32⟩
  | .hbm, ⟨37, _⟩ => ⟨S64x32x256, .f32⟩
  | .hbm, ⟨38, _⟩ => ⟨S_, .f32⟩
  | .hbm, ⟨39, _⟩ => ⟨S64x32, .f32⟩
  | .hbm, ⟨40, _⟩ => ⟨S64x32x1, .f32⟩
  | .hbm, ⟨41, _⟩ => ⟨S1x32x256, .f32⟩
  | .hbm, ⟨42, _⟩ => ⟨S64x32x256, .f32⟩
  | .hbm, ⟨43, _⟩ => ⟨S64x32x256, .f32⟩
  | .hbm, ⟨44, _⟩ => ⟨S64x32x256, .f32⟩
  | .hbm, ⟨45, _⟩ => ⟨S64x32x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  reducesTo_S64x4096x256_S64x4096_d2 : S64x4096x256.ReducesTo [2] S64x4096
  h_S_ : 0 < S_.numel
  bcast_S64x4096_S64x4096x1_0_1 : S64x4096.BroadcastsInDim S64x4096x1 (![0, 1] : Fin 2 → Fin S64x4096x1.rank)
  reducesTo_S32x256_S32_d1 : S32x256.ReducesTo [1] S32
  bcast_S_S64x4096x32 : S_.BroadcastsInDim S64x4096x32 (![] : Fin 0 → Fin S64x4096x32.rank)
  bcast_S64x4096x1_S64x4096x32_0_1_2 : S64x4096x1.BroadcastsInDim S64x4096x32 (![0, 1, 2] : Fin 3 → Fin S64x4096x32.rank)
  bcast_S32_S1x1x32_2 : S32.BroadcastsInDim S1x1x32 (![2] : Fin 1 → Fin S1x1x32.rank)
  bcast_S1x1x32_S64x4096x32_0_1_2 : S1x1x32.BroadcastsInDim S64x4096x32 (![0, 1, 2] : Fin 3 → Fin S64x4096x32.rank)
  reducesTo_S64x4096x32_S64x4096_d2 : S64x4096x32.ReducesTo [2] S64x4096
  bcast_S_S64x4096 : S_.BroadcastsInDim S64x4096 (![] : Fin 0 → Fin S64x4096.rank)
  reducesTo_S64x4096x32_S64x32_d1 : S64x4096x32.ReducesTo [1] S64x32
  bcast_S64x32_S64x32x1_0_1 : S64x32.BroadcastsInDim S64x32x1 (![0, 1] : Fin 2 → Fin S64x32x1.rank)
  bcast_S32x256_S1x32x256_1_2 : S32x256.BroadcastsInDim S1x32x256 (![1, 2] : Fin 2 → Fin S1x32x256.rank)
  bcast_S64x32x1_S64x32x256_0_1_2 : S64x32x1.BroadcastsInDim S64x32x256 (![0, 1, 2] : Fin 3 → Fin S64x32x256.rank)
  bcast_S1x32x256_S64x32x256_0_1_2 : S1x32x256.BroadcastsInDim S64x32x256 (![0, 1, 2] : Fin 3 → Fin S64x32x256.rank)
  dot_S64x4096x256_S32x256_S64x4096x32_2_1_01_0_n_n_wf : DotDims.WF S64x4096x256 S32x256 S64x4096x32 [2] [1] [0, 1] [0] [] []
  dot_S64x4096x32_S64x4096x256_S64x32x256_1_1_2_2_0_0_wf : DotDims.WF S64x4096x32 S64x4096x256 S64x32x256 [1] [1] [2] [2] [0] [0]

variable [Facts₀]

def dot_S64x4096x256_S32x256_S64x4096x32_2_1_01_0_n_n : DotDims S64x4096x256 S32x256 S64x4096x32 where
  lhsContracting := [2]
  rhsContracting := [1]
  lhsNonContracting := [0, 1]
  rhsNonContracting := [0]
  lhsBatch := []
  rhsBatch := []
  wf := dot_S64x4096x256_S32x256_S64x4096x32_2_1_01_0_n_n_wf
def dot_S64x4096x32_S64x4096x256_S64x32x256_1_1_2_2_0_0 : DotDims S64x4096x32 S64x4096x256 S64x32x256 where
  lhsContracting := [1]
  rhsContracting := [1]
  lhsNonContracting := [2]
  rhsNonContracting := [2]
  lhsBatch := [0]
  rhsBatch := [0]
  wf := dot_S64x4096x32_S64x4096x256_S64x32x256_1_1_2_2_0_0_wf

class Facts : Prop extends Facts₀ where

variable [Facts]
-- ==== Proof.TripBits.lean ====
/-
  The pieces the kernel body's two-trip loop leaves in the output block, in closed form.

  Trip k of the loop loads slab k of the input block (one batch entry's rows), computes the entry's encoding from it and
  the four row/codeword operands loaded before the loop, and stores the result as slab k of the output block. The slab it
  loads back from the output block before the store takes no part in the stored value, so the piece a trip writes does
  not depend on what the output block held before: it is one unit-stride rectangle, at the trip's slab offset, carrying
  the payload of the trip's loaded slab. After the two trips the block therefore holds two pieces, trip 1's in front of
  trip 0's, whatever it held at loop entry.
-/
import proofs.«180133_j76888504533767_2_alg».proof.Proof.Gen.Kernel.Frame.Runs

-- membership in a rectangle of production extents (`View.cover_of_tiled`): the elaborator's structural look
-- recurses once per coordinate of the long axes
set_option maxRecDepth 16384

noncomputable section

namespace Cert.Kernel.Trip

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The piece trip `k` writes: slab `k` of the output block, holding the payload of slab `k` of the input block's contents `X`. -/
def slabPiece (arg1 : Memref sig .tc .vmem S2x4096x256 .f32)
    (v0 : Vec F S32x256 .f32) (v1 : Vec F S32x256 .bf16) (v3 : Vec F S1x32 .f32) (v5 : Vec F S1x32 .f32)
    (X : BufTy.Contents (Elt F) arg1.view.ty) (k : Fin k0_t1_loop.trips) : View.Piece (Elt F) S2x32x256 .f32 :=
  ⟨Rect.unit (s := S2x32x256) (k0_off2 k) S1x32x256.size (k0_off2_inb k),
    k0_pay4 v0 (k0_pay1 v1) (k0_pay2 v3) (k0_pay3 v5)
      (View.readAt (Elt F) arg1.view (Rect.unit (s := S2x4096x256) (k0_off1 k) S1x4096x256.size (k0_off1_inb k)).toLoadRect X)⟩

/-- One trip writes exactly that piece, whatever the output block holds when the trip starts. -/
theorem tripL_eq (𝒱 : Variants) (c : Dev nD) (bd : Option 𝒱.V) (i : grid0.Coords) (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S2x32x256 .f32) (harg6 : arg6.IsWhole)
    (v0 : Vec F S32x256 .f32) (v1 : Vec F S32x256 .bf16) (v3 : Vec F S1x32 .f32) (v5 : Vec F S1x32 .f32)
    (X : BufTy.Contents (Elt F) arg1.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 v0 v1 v3 v5 X k f = [slabPiece arg1 v0 v1 v3 v5 X k] := by
  unfold tripL_k0_t1 trip_k0_t1
  rfl

/-- The loop makes two trips. -/
theorem trips_eq : Scf.trips k0_t1_loop.lb k0_t1_loop.ub k0_t1_loop.st = 2 := by decide

theorem zero_lt_trips : 0 < k0_t1_loop.trips := by decide
theorem one_lt_trips : 1 < k0_t1_loop.trips := by decide

/-- The two pieces the loop leaves, trip 1's first. -/
def twoPieces (arg1 : Memref sig .tc .vmem S2x4096x256 .f32)
    (v0 : Vec F S32x256 .f32) (v1 : Vec F S32x256 .bf16) (v3 : Vec F S1x32 .f32) (v5 : Vec F S1x32 .f32)
    (X : BufTy.Contents (Elt F) arg1.view.ty) : List (View.Piece (Elt F) S2x32x256 .f32) :=
  [slabPiece arg1 v0 v1 v3 v5 X ⟨1, one_lt_trips⟩, slabPiece arg1 v0 v1 v3 v5 X ⟨0, zero_lt_trips⟩]

/-- After both trips the pieces written are those two, from any contents `G` at loop entry. -/
theorem pb_closed (𝒱 : Variants) (c : Dev nD) (bd : Option 𝒱.V) (i : grid0.Coords) (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S2x32x256 .f32) (harg6 : arg6.IsWhole)
    (v0 : Vec F S32x256 .f32) (v1 : Vec F S32x256 .bf16) (v3 : Vec F S1x32 .f32) (v5 : Vec F S1x32 .f32)
    (X : BufTy.Contents (Elt F) arg1.view.ty) (G : BufTy.Contents (Elt F) arg6.view.ty) :
    pb_k0_t1 (F := F) 𝒱 c bd i arg1 harg1 arg2 harg2 arg3 harg3 arg4 harg4 arg5 harg5 arg6 harg6 v0 v1 v3 v5 X G (Scf.trips k0_t1_loop.lb k0_t1_loop.ub k0_t1_loop.st)
      = twoPieces arg1 v0 v1 v3 v5 X := by
  rw [trips_eq]
  have e0 := pb_k0_t1_succ (F := F) 𝒱 c bd i arg1 harg1 arg2 harg2 arg3 harg3 arg4 harg4 arg5 harg5 arg6 harg6 v0 v1 v3 v5 X G ⟨0, zero_lt_trips⟩
  have e1 := pb_k0_t1_succ (F := F) 𝒱 c bd i arg1 harg1 arg2 harg2 arg3 harg3 arg4 harg4 arg5 harg5 arg6 harg6 v0 v1 v3 v5 X G ⟨1, one_lt_trips⟩
  rw [tripL_eq] at e0 e1
  have z : pb_k0_t1 (F := F) 𝒱 c bd i arg1 harg1 arg2 harg2 arg3 harg3 arg4 harg4 arg5 harg5 arg6 harg6 v0 v1 v3 v5 X G 0 = [] := rfl
  have e0' : pb_k0_t1 (F := F) 𝒱 c bd i arg1 harg1 arg2 harg2 arg3 harg3 arg4 harg4 arg5 harg5 arg6 harg6 v0 v1 v3 v5 X G 1 = [slabPiece arg1 v0 v1 v3 v5 X ⟨0, zero_lt_trips⟩] := by
    refine e0.trans ?_
    show _ ++ pb_k0_t1 (F := F) 𝒱 c bd i arg1 harg1 arg2 harg2 arg3 harg3 arg4 harg4 arg5 harg5 arg6 harg6 v0 v1 v3 v5 X G 0 = _
    rw [z]; rfl
  refine e1.trans ?_
  show _ ++ pb_k0_t1 (F := F) 𝒱 c bd i arg1 harg1 arg2 harg2 arg3 harg3 arg4 harg4 arg5 harg5 arg6 harg6 v0 v1 v3 v5 X G 1 = _
  rw [e0']; rfl

/-- The pieces the whole body leaves in the output block, on whole staging memrefs holding `x0 … x4`: the loop's two pieces at
    the four operands the body loads before the loop (each a whole-block load) and the input block's contents. -/
def runPieces (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole)
    (x0 : Vec F S2x4096x256 .f32) (x1 : Vec F S32x256 .f32) (x2 : Vec F S32x256 .bf16) (x3 : Vec F S1x32 .f32) (x4 : Vec F S1x32 .f32) :
    List (View.Piece (Elt F) S2x32x256 .f32) :=
  twoPieces arg1
    (View.readAt (Elt F) arg2.view (Rect.unit (s := S32x256) ![0, 0] S32x256.size inb_S32x256_S32x256_0_0).toLoadRect (harg2.unread x1))
    (View.readAt (Elt F) arg3.view (Rect.unit (s := S32x256) ![0, 0] S32x256.size inb_S32x256_S32x256_0_0).toLoadRect (harg3.unread x2))
    (View.readAt (Elt F) arg4.view (Rect.unit (s := S1x32) ![0, 0] S1x32.size inb_S1x32_S1x32_0_0).toLoadRect (harg4.unread x3))
    (View.readAt (Elt F) arg5.view (Rect.unit (s := S1x32) ![0, 0] S1x32.size inb_S1x32_S1x32_0_0).toLoadRect (harg5.unread x4))
    (harg1.unread x0)

end Cert.Kernel.Trip

end
-- ==== Proof.TripIdeal.lean ====
/-
  The pieces the kernel body's two-trip loop leaves in the output block, in closed form.

  Trip k of the loop loads slab k of the input block (one batch entry's rows), computes the entry's encoding from it and
  the four row/codeword operands loaded before the loop, and stores the result as slab k of the output block. The slab it
  loads back from the output block before the store takes no part in the stored value, so the piece a trip writes does
  not depend on what the output block held before: it is one unit-stride rectangle, at the trip's slab offset, carrying
  the payload of the trip's loaded slab. After the two trips the block therefore holds two pieces, trip 1's in front of
  trip 0's, whatever it held at loop entry.
-/
import proofs.«180133_j76888504533767_2_alg».proof.Proof.Gen.KernelIdeal.Frame.Runs

-- membership in a rectangle of production extents (`View.cover_of_tiled`): the elaborator's structural look
-- recurses once per coordinate of the long axes
set_option maxRecDepth 16384

noncomputable section

namespace Cert.KernelIdeal.Trip

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The piece trip `k` writes: slab `k` of the output block, holding the payload of slab `k` of the input block's contents `X`. -/
def slabPiece (arg1 : Memref sig .tc .vmem S2x4096x256 .f32)
    (v0 : Vec F S32x256 .f32) (v1 : Vec F S32x256 .bf16) (v3 : Vec F S1x32 .f32) (v5 : Vec F S1x32 .f32)
    (X : BufTy.Contents (Elt F) arg1.view.ty) (k : Fin k0_t1_loop.trips) : View.Piece (Elt F) S2x32x256 .f32 :=
  ⟨Rect.unit (s := S2x32x256) (k0_off2 k) S1x32x256.size (k0_off2_inb k),
    k0_pay4 v0 (k0_pay1 v1) (k0_pay2 v3) (k0_pay3 v5)
      (View.readAt (Elt F) arg1.view (Rect.unit (s := S2x4096x256) (k0_off1 k) S1x4096x256.size (k0_off1_inb k)).toLoadRect X)⟩

/-- One trip writes exactly that piece, whatever the output block holds when the trip starts. -/
theorem tripL_eq (𝒱 : Variants) (c : Dev nD) (bd : Option 𝒱.V) (i : grid0.Coords) (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S2x32x256 .f32) (harg6 : arg6.IsWhole)
    (v0 : Vec F S32x256 .f32) (v1 : Vec F S32x256 .bf16) (v3 : Vec F S1x32 .f32) (v5 : Vec F S1x32 .f32)
    (X : BufTy.Contents (Elt F) arg1.view.ty) (k : Fin k0_t1_loop.trips) (f : BufTy.Contents (Elt F) arg6.view.ty) :
    tripL_k0_t1 (F := F) 𝒱 c bd i arg1 harg1 arg2 harg2 arg3 harg3 arg4 harg4 arg5 harg5 arg6 harg6 v0 v1 v3 v5 X k f = [slabPiece arg1 v0 v1 v3 v5 X k] := by
  unfold tripL_k0_t1 trip_k0_t1
  rfl

/-- The loop makes two trips. -/
theorem trips_eq : Scf.trips k0_t1_loop.lb k0_t1_loop.ub k0_t1_loop.st = 2 := by decide

theorem zero_lt_trips : 0 < k0_t1_loop.trips := by decide
theorem one_lt_trips : 1 < k0_t1_loop.trips := by decide

/-- The two pieces the loop leaves, trip 1's first. -/
def twoPieces (arg1 : Memref sig .tc .vmem S2x4096x256 .f32)
    (v0 : Vec F S32x256 .f32) (v1 : Vec F S32x256 .bf16) (v3 : Vec F S1x32 .f32) (v5 : Vec F S1x32 .f32)
    (X : BufTy.Contents (Elt F) arg1.view.ty) : List (View.Piece (Elt F) S2x32x256 .f32) :=
  [slabPiece arg1 v0 v1 v3 v5 X ⟨1, one_lt_trips⟩, slabPiece arg1 v0 v1 v3 v5 X ⟨0, zero_lt_trips⟩]

/-- After both trips the pieces written are those two, from any contents `G` at loop entry. -/
theorem pb_closed (𝒱 : Variants) (c : Dev nD) (bd : Option 𝒱.V) (i : grid0.Coords) (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S2x32x256 .f32) (harg6 : arg6.IsWhole)
    (v0 : Vec F S32x256 .f32) (v1 : Vec F S32x256 .bf16) (v3 : Vec F S1x32 .f32) (v5 : Vec F S1x32 .f32)
    (X : BufTy.Contents (Elt F) arg1.view.ty) (G : BufTy.Contents (Elt F) arg6.view.ty) :
    pb_k0_t1 (F := F) 𝒱 c bd i arg1 harg1 arg2 harg2 arg3 harg3 arg4 harg4 arg5 harg5 arg6 harg6 v0 v1 v3 v5 X G (Scf.trips k0_t1_loop.lb k0_t1_loop.ub k0_t1_loop.st)
      = twoPieces arg1 v0 v1 v3 v5 X := by
  rw [trips_eq]
  have e0 := pb_k0_t1_succ (F := F) 𝒱 c bd i arg1 harg1 arg2 harg2 arg3 harg3 arg4 harg4 arg5 harg5 arg6 harg6 v0 v1 v3 v5 X G ⟨0, zero_lt_trips⟩
  have e1 := pb_k0_t1_succ (F := F) 𝒱 c bd i arg1 harg1 arg2 harg2 arg3 harg3 arg4 harg4 arg5 harg5 arg6 harg6 v0 v1 v3 v5 X G ⟨1, one_lt_trips⟩
  rw [tripL_eq] at e0 e1
  have z : pb_k0_t1 (F := F) 𝒱 c bd i arg1 harg1 arg2 harg2 arg3 harg3 arg4 harg4 arg5 harg5 arg6 harg6 v0 v1 v3 v5 X G 0 = [] := rfl
  have e0' : pb_k0_t1 (F := F) 𝒱 c bd i arg1 harg1 arg2 harg2 arg3 harg3 arg4 harg4 arg5 harg5 arg6 harg6 v0 v1 v3 v5 X G 1 = [slabPiece arg1 v0 v1 v3 v5 X ⟨0, zero_lt_trips⟩] := by
    refine e0.trans ?_
    show _ ++ pb_k0_t1 (F := F) 𝒱 c bd i arg1 harg1 arg2 harg2 arg3 harg3 arg4 harg4 arg5 harg5 arg6 harg6 v0 v1 v3 v5 X G 0 = _
    rw [z]; rfl
  refine e1.trans ?_
  show _ ++ pb_k0_t1 (F := F) 𝒱 c bd i arg1 harg1 arg2 harg2 arg3 harg3 arg4 harg4 arg5 harg5 arg6 harg6 v0 v1 v3 v5 X G 1 = _
  rw [e0']; rfl

/-- The pieces the whole body leaves in the output block, on whole staging memrefs holding `x0 … x4`: the loop's two pieces at
    the four operands the body loads before the loop (each a whole-block load) and the input block's contents. -/
def runPieces (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole)
    (x0 : Vec F S2x4096x256 .f32) (x1 : Vec F S32x256 .f32) (x2 : Vec F S32x256 .bf16) (x3 : Vec F S1x32 .f32) (x4 : Vec F S1x32 .f32) :
    List (View.Piece (Elt F) S2x32x256 .f32) :=
  twoPieces arg1
    (View.readAt (Elt F) arg2.view (Rect.unit (s := S32x256) ![0, 0] S32x256.size inb_S32x256_S32x256_0_0).toLoadRect (harg2.unread x1))
    (View.readAt (Elt F) arg3.view (Rect.unit (s := S32x256) ![0, 0] S32x256.size inb_S32x256_S32x256_0_0).toLoadRect (harg3.unread x2))
    (View.readAt (Elt F) arg4.view (Rect.unit (s := S1x32) ![0, 0] S1x32.size inb_S1x32_S1x32_0_0).toLoadRect (harg4.unread x3))
    (View.readAt (Elt F) arg5.view (Rect.unit (s := S1x32) ![0, 0] S1x32.size inb_S1x32_S1x32_0_0).toLoadRect (harg5.unread x4))
    (harg1.unread x0)

end Cert.KernelIdeal.Trip

end
-- ==== Proof.LibPieces.lean ====
/-
  Reading back a buffer after unmasked writes through unit-stride rectangles, one index at a time.

  The contents left by a list of writes (newest first) are, at an index, the payload of the first write whose
  rectangle holds the index, read at the index's position inside that rectangle.  For a unit-stride rectangle
  that position is the index minus the rectangle's offset, coordinate by coordinate (`rel`).  The same holds of
  the canonical contents of a list of pieces, which forget what the buffer held before.  A blend of old contents
  with an update placed at a start offset reads the update inside its window and the old contents outside.
-/
import Idealize.ShloMosaic.Lib.Pipeline.FrameBody
import Idealize.ShloMosaic.Lib.Pipeline.Value

noncomputable section

namespace Cert.LibPieces

open Idealize.ShloMosaic

variable {s : Shape} {e : EltTy} {Val : EltTy → Type}

/-- The position of the index `y` inside a unit-stride rectangle of offsets `off` and sizes `size` that holds it. -/
def rel (off size : Fin s.rank → Nat) (y : s.Idx) (h : ∀ a, off a ≤ (y a : Nat) ∧ (y a : Nat) < off a + size a) :
    (⟨s.rank, size⟩ : Shape).Idx := fun a => ⟨(y a : Nat) - off a, by have := h a; show (y a : Nat) - off a < size a; omega⟩

@[simp] theorem rel_val (off size : Fin s.rank → Nat) (y : s.Idx) (h) (a : Fin s.rank) :
    ((rel off size y h a : Fin (size a)) : Nat) = (y a : Nat) - off a := rfl

/-- Placing that position back in the whole shape gives the index. -/
theorem emb_rel (off size : Fin s.rank → Nat) (inb : ∀ a, off a + size a ≤ s.size a) (y : s.Idx) (h) :
    (Rect.unit off size inb).emb (rel off size y h) = y := by
  funext a
  apply Fin.ext
  have e := Rect.emb_apply (Rect.unit off size inb) (rel off size y h) a
  rw [e]
  simp only [Rect.off_unit, Rect.stride_unit, Nat.one_mul]
  have := h a
  show off a + ((y a : Nat) - off a) = (y a : Nat)
  omega

section Canon
variable [∀ e, Nonempty (Val e)]

/-- The canonical contents at an index the newest piece holds: that piece's payload at the index's position. -/
theorem canon_cons_unit_of_mem (off size : Fin s.rank → Nat) (inb : ∀ a, off a + size a ≤ s.size a)
    (w : (Rect.unit off size inb).shape.Idx → Val e) (L : List (View.Piece Val s e)) (y : s.Idx)
    (h : ∀ a, off a ≤ (y a : Nat) ∧ (y a : Nat) < off a + size a) :
    View.canon (⟨Rect.unit off size inb, w⟩ :: L) y = w (rel off size y h) := by
  conv_lhs => rw [← emb_rel off size inb y h]
  exact View.canon_cons_emb _ w L _

/-- At an index the newest piece does not hold: the canonical contents of the earlier pieces. -/
theorem canon_cons_unit_of_not_mem (off size : Fin s.rank → Nat) (inb : ∀ a, off a + size a ≤ s.size a)
    (w : (Rect.unit off size inb).shape.Idx → Val e) (L : List (View.Piece Val s e)) (y : s.Idx)
    (h : ¬ ∀ a, off a ≤ (y a : Nat) ∧ (y a : Nat) < off a + size a) :
    View.canon (⟨Rect.unit off size inb, w⟩ :: L) y = View.canon L y :=
  View.canon_cons_of_not_mem _ L (fun hm => h ((Rect.mem_set_unit (inb := inb)).mp hm))

end Canon

section Writes
variable {sig : RefSig} {κ : Kind} {sp : Space} (v : View sig κ sp s e) (f : v.ty.Contents Val)

/-- A buffer read back at an index the newest write holds: that write's payload at the index's position. -/
theorem read_writes_cons_unit_of_mem (off size : Fin s.rank → Nat) (inb : ∀ a, off a + size a ≤ s.size a)
    (w : (Rect.unit off size inb).shape.Idx → Val e) (L : List (View.Piece Val s e)) (y : s.Idx)
    (h : ∀ a, off a ≤ (y a : Nat) ∧ (y a : Nat) < off a + size a) :
    v.read Val (v.writes Val f (⟨Rect.unit off size inb, w⟩ :: L)) y = w (rel off size y h) := by
  conv_lhs => rw [← emb_rel off size inb y h]
  exact View.read_writes_cons_emb v f _ w L _

/-- At an index the newest write does not hold: what the earlier writes left. -/
theorem read_writes_cons_unit_of_not_mem (off size : Fin s.rank → Nat) (inb : ∀ a, off a + size a ≤ s.size a)
    (w : (Rect.unit off size inb).shape.Idx → Val e) (L : List (View.Piece Val s e)) (y : s.Idx)
    (h : ¬ ∀ a, off a ≤ (y a : Nat) ∧ (y a : Nat) < off a + size a) :
    v.read Val (v.writes Val f (⟨Rect.unit off size inb, w⟩ :: L)) y = v.read Val (v.writes Val f L) y := by
  rw [View.writes_cons]
  exact View.read_slice_write_of_not_mem _ _ _ _ (by
    rw [Rect.map_emb_univ]; exact fun hm => h ((Rect.mem_set_unit (inb := inb)).mp hm))

end Writes

section Blend
variable {α : Type} {u : Shape}

/-- Inside the update's window a blend reads the update, at the index minus the start. -/
theorem updateSlice_of_mem (x : s.Idx → α) (upd : u.Idx → α) (start : Fin s.rank → Nat) (hs : s.Slices start u) (i : s.Idx)
    (hin : ∀ a : Fin s.rank, start a ≤ (i a).val ∧ (i a).val < start a + u.size (a.cast hs.1.symm)) :
    ∃ k : u.Idx, (∀ b : Fin u.rank, ((k b : Fin _) : Nat) = (i (b.cast hs.1)).val - start (b.cast hs.1)) ∧
      updateSlice x upd start hs i = upd k := by
  refine ⟨fun b => ⟨(i (b.cast hs.1)).val - start (b.cast hs.1), by
      have hb := hin (b.cast hs.1)
      have e : (b.cast hs.1).cast hs.1.symm = b := rfl
      rw [e] at hb
      omega⟩, fun b => rfl, ?_⟩
  unfold updateSlice
  rw [dif_pos hin]

/-- Outside it, the old contents. -/
theorem updateSlice_of_not_mem (x : s.Idx → α) (upd : u.Idx → α) (start : Fin s.rank → Nat) (hs : s.Slices start u) (i : s.Idx)
    (hout : ¬ ∀ a : Fin s.rank, start a ≤ (i a).val ∧ (i a).val < start a + u.size (a.cast hs.1.symm)) :
    updateSlice x upd start hs i = x i := by
  unfold updateSlice
  rw [dif_neg hout]

end Blend

end Cert.LibPieces

end
-- ==== Proof.LibReadAt.lean ====
/-
  Two readings that recur whenever a kernel's stores and loads are opened at an index, for any shapes.

  A load of a buffer through a unit-stride rectangle, read at a position, is the buffer at the rectangle's offsets plus
  the position, coordinate by coordinate (`ld_unit_apply`; `readAt_unread` puts a load of a whole memref held at
  named contents in that form). A reshape that splits the last axis of a matrix in two, or adds a leading unit axis,
  keeps row-major order: entry `(a, b, c)` of the split is entry `(a, b·C + c)` of the matrix, and entry
  `(0, a, b, c)` of the unit-axis form is entry `(a, b, c)` (`split_last_apply`, `lead_unit4_apply`); the chunk of a
  [1, A, N] vector seen as [A, N] likewise (`drop_unit3_apply`).
-/
import Idealize.ShloMosaic.Lib.Pipeline.FrameBody
import Idealize.ShloMosaic.Lib.Pipeline.Frame
import Idealize.ShloMosaic.Lib.Pipeline.Value
import Idealize.ShloMosaic.Lib.ValueIdx

noncomputable section

namespace Cert.LibReadAt

open Idealize.ShloMosaic

variable {α : Type}

/-- A load through a unit-stride rectangle, at a position: the contents at offset plus position. -/
theorem ld_unit_apply {s : Shape} {Val : EltTy → Type} {e : EltTy} (X : s.Idx → Val e) (off : Fin s.rank → ℕ)
    (size : Fin s.rank → ℕ) (inb : ∀ a, off a + size a ≤ s.size a)
    (k : (Rect.unit (s := s) off size inb).shape.Idx) (j : s.Idx) (hj : ∀ a, (j a).val = off a + (k a).val) :
    View.ld X (Rect.unit (s := s) off size inb) k = X j := by
  show X ((Rect.unit (s := s) off size inb).emb k) = X j
  refine congrArg X (funext fun a => Fin.ext ?_)
  rw [Rect.emb_apply, hj a]
  simp only [Rect.off_unit, Rect.stride_unit, Nat.one_mul]

/-- A [A, B·C] matrix reshaped to [A, B, C], read at `(a, b, c)`. -/
theorem split_last_apply {A B C N : ℕ} (x : (⟨2, ![A, N]⟩ : Shape).Idx → α)
    (h : (⟨2, ![A, N]⟩ : Shape).ShapeCasts ⟨3, ![A, B, C]⟩) (a : Fin A) (b : Fin B) (c : Fin C) (n : Fin N)
    (hN : N = B * C) (hn : n.val = b.val * C + c.val) :
    shapeCast ⟨3, ![A, B, C]⟩ x h (ValueIdx.ix3 a b c) = x (ValueIdx.ix2 a n) := by
  refine shapeCast_apply x h _ _ ?_
  rw [Shape.rowMajor_val_two, Shape.rowMajor_val_three]
  show a.val * N + n.val = (a.val * B + b.val) * C + c.val
  rw [hn, hN]
  ring

/-- A [A, B, C] array given a leading unit axis, read at `(0, a, b, c)`. -/
theorem lead_unit4_apply {A B C : ℕ} (x : (⟨3, ![A, B, C]⟩ : Shape).Idx → α)
    (h : (⟨3, ![A, B, C]⟩ : Shape).ShapeCasts ⟨4, ![1, A, B, C]⟩) (a : Fin A) (b : Fin B) (c : Fin C) :
    shapeCast ⟨4, ![1, A, B, C]⟩ x h (ValueIdx.ix4 (0 : Fin 1) a b c) = x (ValueIdx.ix3 a b c) := by
  refine shapeCast_apply x h _ _ ?_
  rw [Shape.rowMajor_val_three, Shape.rowMajor_val_four]
  show (a.val * B + b.val) * C + c.val = (((0 : ℕ) * A + a.val) * B + b.val) * C + c.val
  rw [Nat.zero_mul, Nat.zero_add]

/-- A [1, A, N] array with its leading unit axis dropped, read at `(a, n)`. -/
theorem drop_unit3_apply {A N : ℕ} (x : (⟨3, ![1, A, N]⟩ : Shape).Idx → α)
    (h : (⟨3, ![1, A, N]⟩ : Shape).ShapeCasts ⟨2, ![A, N]⟩) (a : Fin A) (n : Fin N) :
    shapeCast ⟨2, ![A, N]⟩ x h (ValueIdx.ix2 a n) = x (ValueIdx.ix3 (0 : Fin 1) a n) := by
  refine shapeCast_apply x h _ _ ?_
  rw [Shape.rowMajor_val_three, Shape.rowMajor_val_two]
  show ((0 : ℕ) * A + a.val) * N + n.val = a.val * N + n.val
  rw [Nat.zero_mul, Nat.zero_add]

end Cert.LibReadAt

end
-- ==== Proof.Spec.lean ====
/-
  The residual-softmax encoding as one function of the argument arrays, index by index, on the extended reals.

  For one batch entry with rows x_n (n < 4096, each of 256 features), codewords c_k (k < 32) and smoothing
  factors s_k:
    dist n k   = (|x_n|^2 - 2 * <x_n, c_k>) + |c_k|^2          (the squared distance |x_n - c_k|^2, expanded)
    logit n k  = (-s_k) * dist n k
    weight n k = exp (logit n k - max_k' logit n k') / sum_k'' exp (logit n k'' - max_k' logit n k')
    out k d    = (sum_n weight n k * x_n d) - (sum_n weight n k) * c_k d
  the aggregate of the residuals x_n - c_k under the soft assignment, with the sum over n split in two.
  Both programs compute exactly this composition, so it is written once, generalised over the five things a
  batch entry's computation reads — the rows, the codewords, a second copy of the codewords (the one the cross
  term contracts against), the codewords' squared norms and the factors — and then instantiated at the three
  argument arrays. The row maximum is the maximum with the word for minus infinity of the fold of `max` from
  that same word: the value is kept as the word so that it is the same term on both sides and never evaluated.
-/
import Idealize.ShloMosaic.PureOps.Ideal
import Idealize.ShloMosaic.Lib.ValueIdx

noncomputable section

open scoped BigOperators

namespace Cert.Encode

open Idealize.ShloMosaic Idealize.ShloMosaic.ValueIdx

/-- The word of minus infinity, as both programs spell it. -/
abbrev negInf : EReal := Ideal.ofBits .f32 0xFF800000#32
/-- The word of the literal 2.0, as both programs spell it. -/
abbrev two : EReal := Ideal.ofBits .f32 0x40000000#32

section Slab

variable (x : Fin 4096 → Fin 256 → EReal) (c cb : Fin 32 → Fin 256 → EReal) (c2 s : Fin 32 → EReal)

/-- |x_n|^2. -/
def sqNorm (n : Fin 4096) : EReal := ∑ d : Fin 256, x n d * x n d

/-- <x_n, cb_k>. -/
def cross (n : Fin 4096) (k : Fin 32) : EReal := ∑ d : Fin 256, x n d * cb k d

/-- (-s_k) * ((|x_n|^2 - 2 <x_n, cb_k>) + c2_k). -/
def logit (n : Fin 4096) (k : Fin 32) : EReal :=
  (-(s k)) * ((sqNorm x n - two * cross x cb n k) + c2 k)

/-- The largest logit of row n (against minus infinity twice, as the lowered softmax takes it). -/
def rowMax (n : Fin 4096) : EReal :=
  max negInf ((Finset.univ : Finset (Fin 32)).fold max negInf (fun k => logit x cb c2 s n k))

/-- exp (logit n k - rowMax n). -/
def expo (n : Fin 4096) (k : Fin 32) : EReal := Ideal.exp (logit x cb c2 s n k - rowMax x cb c2 s n)

/-- The softmax denominator of row n. -/
def denom (n : Fin 4096) : EReal := ∑ k : Fin 32, expo x cb c2 s n k

/-- The soft assignment of row n to codeword k. -/
def weight (n : Fin 4096) (k : Fin 32) : EReal := Ideal.div (expo x cb c2 s n k) (denom x cb c2 s n)

/-- One batch entry's encoding at codeword k, feature d. -/
def slabEncode (k : Fin 32) (d : Fin 256) : EReal :=
  (∑ n : Fin 4096, weight x cb c2 s n k * x n d) - (∑ n : Fin 4096, weight x cb c2 s n k) * c k d

end Slab

/-- |c_k|^2. -/
def codeNorm (c : Fin 32 → Fin 256 → EReal) (k : Fin 32) : EReal := ∑ d : Fin 256, c k d * c k d

/-- The encoding of the whole batch as a function of the three argument arrays, by coordinates. -/
def encode (X : Fin 64 → Fin 4096 → Fin 256 → EReal) (C : Fin 32 → Fin 256 → EReal) (S : Fin 32 → EReal)
    (b : Fin 64) (k : Fin 32) (d : Fin 256) : EReal :=
  slabEncode (X b) C C (codeNorm C) S k d

/-- The same on arrays indexed by their shapes' index types: the result array both programs end with. -/
def encodeArr (X : (⟨3, ![64, 4096, 256]⟩ : Shape).Idx → EReal) (C : (⟨2, ![32, 256]⟩ : Shape).Idx → EReal)
    (S : (⟨1, ![32]⟩ : Shape).Idx → EReal) : (⟨3, ![64, 32, 256]⟩ : Shape).Idx → EReal :=
  fun i => encode (fun b n d => X (ix3 b n d)) (fun k d => C (ix2 k d)) (fun k => S (ix1 k)) (i 0) (i 1) (i 2)

end Cert.Encode

end
-- ==== Proof.Block.lean ====
/-
  What the kernel body leaves in the result block, entry by entry.

  The body loads the codewords, their second copy, the row of their squared norms and the row of factors once, whole;
  then trip o of its two-trip loop (o = 0, 1) loads slab o of the rows' block — one batch entry, 4096 rows of 256
  features — and stores that entry's encoding as slab o of the result block. The two stores write disjoint slabs
  (offsets (0, 0, 0) and (1, 0, 0), each of extent [1, 32, 256]), so entry (o, k, d) of the block after the body is
  entry (0, k, d) of trip o's stored value: the body's one pure term of the four whole operands and of slab o of the
  rows. For o = 1 the newest piece holds the entry; for o = 0 it does not and the older piece does.
-/
import proofs.«180133_j76888504533767_2_alg».proof.Proof.PatchedIdealFrame
import proofs.«180133_j76888504533767_2_alg».proof.Proof.LibPieces
import proofs.«180133_j76888504533767_2_alg».proof.Proof.LibReadAt
import proofs.«180133_j76888504533767_2_alg».proof.Proof.Spec
import Idealize.ShloMosaic.Lib.ValueIdx
import Idealize.ShloMosaic.Lib.Pipeline.Value

set_option maxRecDepth 16384

noncomputable section

namespace Cert.Encode.Block

open Cert.KernelIdeal Cert.KernelIdeal.Gen Cert.KernelIdeal.GenP Cert.KernelIdeal.Trip
open Idealize.ShloMosaic Idealize.ShloMosaic.TcCoe Idealize.SL.Sem Idealize.ShloMosaic.ValueIdx

variable {F : FTy → Type} [FloatOps F]

/-- The offsets of the two trips' slabs, as literals. -/
theorem off2_zero : k0_off2 ⟨0, zero_lt_trips⟩ = ![0, 0, 0] := by decide
theorem off2_one : k0_off2 ⟨1, one_lt_trips⟩ = ![1, 0, 0] := by decide
theorem off1_zero : k0_off1 ⟨0, zero_lt_trips⟩ = ![0, 0, 0] := by decide
theorem off1_one : k0_off1 ⟨1, one_lt_trips⟩ = ![1, 0, 0] := by decide

theorem zeros2 : (![0, 0] : Fin 2 → Nat) = fun _ => 0 := funext fun a => by fin_cases a <;> rfl

/-- A load of a whole staging buffer holding `x`, through the whole-shape rectangle, is `x`. -/
theorem load_whole {s : Shape} {e : EltTy} (mr : Memref sig .tc .vmem s e) (h : mr.IsWhole) (x : Vec F s e)
    {off : Fin s.rank → ℕ} (hz : off = fun _ => 0) (inb : ∀ a, off a + s.size a ≤ s.size a) :
    View.readAt (Elt F) mr.view (Rect.unit (s := s) off s.size inb).toLoadRect (h.unread x) = x := by
  show View.ld (mr.view.read (Elt F) (h.unread x)) (Rect.unit (s := s) off s.size inb) = x
  rw [h.read_unread]
  exact View.ld_unit_zero hz inb x

/-- Slab `o` of the rows' block, as a trip of the loop loads it through the unit-stride rectangle at offsets (o, 0, 0):
    entry (0, n, d) of the load is entry (o, n, d) of the block. -/
theorem load_slab (arg1 : Memref sig .tc .vmem S2x4096x256 .f32) (harg1 : arg1.IsWhole) (x0 : Vec F S2x4096x256 .f32)
    (o : Fin 2) (off : Fin 3 → ℕ) (inb : ∀ a, off a + S1x4096x256.size a ≤ S2x4096x256.size a) (hoff : off = ![o.val, 0, 0]) :
    View.readAt (Elt F) arg1.view (Rect.unit (s := S2x4096x256) off S1x4096x256.size inb).toLoadRect (harg1.unread x0)
      = fun y : S1x4096x256.Idx => x0 (ix3 o (y 1) (y 2)) := by
  subst hoff
  show View.ld (arg1.view.read (Elt F) (harg1.unread x0)) (Rect.unit (s := S2x4096x256) ![o.val, 0, 0] S1x4096x256.size inb) = _
  rw [harg1.read_unread]
  funext y
  refine Cert.LibReadAt.ld_unit_apply x0 _ _ _ y (ix3 o (y 1) (y 2)) (fun a => ?_)
  match a with
  | ⟨0, _⟩ => show o.val = o.val + (y 0).val; have hy : (y 0).val < 1 := (y 0).isLt; omega
  | ⟨1, _⟩ => show (y 1).val = 0 + (y 1).val; omega
  | ⟨2, _⟩ => show (y 2).val = 0 + (y 2).val; omega

theorem run_pieces (c : Dev nD) (i : grid0.Coords) (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S2x32x256 .f32) (harg6 : arg6.IsWhole)
    (x0 : Vec F S2x4096x256 .f32) (x1 : Vec F S32x256 .f32) (x2 : Vec F S32x256 .bf16) (x3 : Vec F S1x32 .f32) (x4 : Vec F S1x32 .f32) :
    (kernelRun0_A (F := F) c i arg1 harg1 arg2 harg2 arg3 harg3 arg4 harg4 arg5 harg5 arg6 harg6 x0 x1 x2 x3 x4).1 = runPieces arg1 harg1 arg2 harg2 arg3 harg3 arg4 harg4 arg5 harg5 x0 x1 x2 x3 x4 := rfl

/-- What the body leaves in the result block at (o, k, d): the payload of slab `o` of the rows' block and of the four
    whole operands, at (0, k, d) — the store of trip `o`, which no other trip overwrites. -/
theorem out_slab (c : Dev nD) (i : grid0.Coords) (arg1 : Memref sig .tc .vmem S2x4096x256 .f32) (harg1 : arg1.IsWhole) (arg2 : Memref sig .tc .vmem S32x256 .f32) (harg2 : arg2.IsWhole) (arg3 : Memref sig .tc .vmem S32x256 .bf16) (harg3 : arg3.IsWhole) (arg4 : Memref sig .tc .vmem S1x32 .f32) (harg4 : arg4.IsWhole) (arg5 : Memref sig .tc .vmem S1x32 .f32) (harg5 : arg5.IsWhole) (arg6 : Memref sig .tc .vmem S2x32x256 .f32) (harg6 : arg6.IsWhole)
    (x0 : Vec F S2x4096x256 .f32) (x1 : Vec F S32x256 .f32) (x2 : Vec F S32x256 .bf16) (x3 : Vec F S1x32 .f32) (x4 : Vec F S1x32 .f32) (o : Fin 2) (k : Fin 32) (d : Fin 256) :
    out0_A_5 (F := F) c i arg1 harg1 arg2 harg2 arg3 harg3 arg4 harg4 arg5 harg5 arg6 harg6 x0 x1 x2 x3 x4 (ix3 o k d)
      = k0_pay4 x1 (k0_pay1 x2) (k0_pay2 x3) (k0_pay3 x4) (fun y : S1x4096x256.Idx => x0 (ix3 o (y 1) (y 2))) (ix3 (0 : Fin 1) k d) := by
  unfold out0_A_5
  rw [run_pieces]
  unfold runPieces twoPieces slabPiece
  rw [load_whole arg2 harg2 x1 zeros2, load_whole arg3 harg3 x2 zeros2, load_whole arg4 harg4 x3 zeros2, load_whole arg5 harg5 x4 zeros2]
  match o with
  | ⟨1, _⟩ =>
    have h : ∀ a : Fin 3, k0_off2 ⟨1, one_lt_trips⟩ a ≤ ((ix3 (1 : Fin 2) k d : S2x32x256.Idx) a : Nat) ∧ ((ix3 (1 : Fin 2) k d : S2x32x256.Idx) a : Nat) < k0_off2 ⟨1, one_lt_trips⟩ a + S1x32x256.size a := by
      rw [off2_one]
      intro a
      match a with
      | ⟨0, _⟩ => exact ⟨Nat.le_refl 1, by show (1 : ℕ) < 1 + 1; omega⟩
      | ⟨1, _⟩ => exact ⟨Nat.zero_le _, by show k.val < 0 + 32; have := k.isLt; omega⟩
      | ⟨2, _⟩ => exact ⟨Nat.zero_le _, by show d.val < 0 + 256; have := d.isLt; omega⟩
    refine (Cert.LibPieces.read_writes_cons_unit_of_mem VO0_5 _ _ _ _ _ _ _ h).trans ?_
    rw [load_slab arg1 harg1 x0 (1 : Fin 2) _ _ off1_one]
    refine congrArg _ (funext fun a => Fin.ext ?_)
    rw [Cert.LibPieces.rel_val, off2_one]
    match a with
    | ⟨0, _⟩ => rfl
    | ⟨1, _⟩ => rfl
    | ⟨2, _⟩ => rfl
  | ⟨0, _⟩ =>
    have hn : ¬ ∀ a : Fin 3, k0_off2 ⟨1, one_lt_trips⟩ a ≤ ((ix3 (0 : Fin 2) k d : S2x32x256.Idx) a : Nat) ∧ ((ix3 (0 : Fin 2) k d : S2x32x256.Idx) a : Nat) < k0_off2 ⟨1, one_lt_trips⟩ a + S1x32x256.size a := by
      rw [off2_one]
      intro hall
      have := (hall 0).1
      exact absurd this (by show ¬ (1 : ℕ) ≤ 0; omega)
    have h : ∀ a : Fin 3, k0_off2 ⟨0, zero_lt_trips⟩ a ≤ ((ix3 (0 : Fin 2) k d : S2x32x256.Idx) a : Nat) ∧ ((ix3 (0 : Fin 2) k d : S2x32x256.Idx) a : Nat) < k0_off2 ⟨0, zero_lt_trips⟩ a + S1x32x256.size a := by
      rw [off2_zero]
      intro a
      match a with
      | ⟨0, _⟩ => exact ⟨Nat.le_refl 0, by show (0 : ℕ) < 0 + 1; omega⟩
      | ⟨1, _⟩ => exact ⟨Nat.zero_le _, by show k.val < 0 + 32; have := k.isLt; omega⟩
      | ⟨2, _⟩ => exact ⟨Nat.zero_le _, by show d.val < 0 + 256; have := d.isLt; omega⟩
    refine (Cert.LibPieces.read_writes_cons_unit_of_not_mem VO0_5 _ _ _ _ _ _ _ hn).trans ?_
    refine (Cert.LibPieces.read_writes_cons_unit_of_mem VO0_5 _ _ _ _ _ _ _ h).trans ?_
    rw [load_slab arg1 harg1 x0 (0 : Fin 2) _ _ off1_zero]
    refine congrArg _ (funext fun a => Fin.ext ?_)
    rw [Cert.LibPieces.rel_val, off2_zero]
    match a with
    | ⟨0, _⟩ => rfl
    | ⟨1, _⟩ => rfl
    | ⟨2, _⟩ => rfl

end Cert.Encode.Block

end
-- ==== Proof.LibRowsCols.lean ====
/-
  Rows and columns re-laid, read at coordinates.

  A vector of n entries becomes a 1×n row by a unit leading axis and an m-vector an m×1 column by a unit trailing
  axis; a row is repeated down m rows and a column across n columns. Read at coordinates, each re-laying only
  re-reads its operand: the row made from v holds v(q) at (0, q); the column made from v holds v(p) at (p, 0); a
  row r repeated down the rows holds r(0, q) at (p, q); a column c repeated across holds c(p, 0) at (p, q). The
  same holds when the unit axis is introduced by a change of shape that keeps the row-major order, because an
  entry's row-major position does not move. Stated for any element type and, where the extent decides which axis is
  the unit one, for extents greater than one.
-/
import Mathlib
import Idealize.ShloMosaic.PureOps.Ideal
import Idealize.ShloMosaic.Lib.ValueIdx
import Idealize.ShloMosaic.Lib.Pipeline.Value

noncomputable section

namespace Cert.LibRowsCols

open Idealize.ShloMosaic Idealize.ShloMosaic.ValueIdx

variable {α : Type}

/-- A vector made a row by a broadcast that sends its axis to axis 1: the row holds v(q) at (0, q). -/
theorem row_of_vec {n : Nat} (hn : n ≠ 1) (h : (⟨1, ![n]⟩ : Shape).BroadcastsInDim ⟨2, ![1, n]⟩ ![1])
    (v : (⟨1, ![n]⟩ : Shape).Idx → α) (z : Fin 1) (q : Fin n) :
    broadcastInDim ⟨2, ![1, n]⟩ ![1] h v (ix2 z q) = v (ix1 q) := by
  refine broadcastInDim_apply _ h v _ (ix1 q) fun a => ?_
  match a with
  | ⟨0, _⟩ => exact (if_neg hn).symm

/-- A vector made a column by a broadcast that sends its axis to axis 0: the column holds v(p) at (p, 0). -/
theorem col_of_vec {m : Nat} (hm : m ≠ 1) (h : (⟨1, ![m]⟩ : Shape).BroadcastsInDim ⟨2, ![m, 1]⟩ ![0])
    (v : (⟨1, ![m]⟩ : Shape).Idx → α) (p : Fin m) (z : Fin 1) :
    broadcastInDim ⟨2, ![m, 1]⟩ ![0] h v (ix2 p z) = v (ix1 p) := by
  refine broadcastInDim_apply _ h v _ (ix1 p) fun a => ?_
  match a with
  | ⟨0, _⟩ => exact (if_neg hm).symm

/-- A row repeated down m rows holds r(0, q) at (p, q). -/
theorem rows_of_row {m n : Nat} (hn : n ≠ 1) (h : (⟨2, ![1, n]⟩ : Shape).BroadcastsInDim ⟨2, ![m, n]⟩ ![0, 1])
    (r : (⟨2, ![1, n]⟩ : Shape).Idx → α) (p : Fin m) (q : Fin n) :
    broadcastInDim ⟨2, ![m, n]⟩ ![0, 1] h r (ix2 p q) = r (ix2 0 q) := by
  refine broadcastInDim_apply _ h r _ (ix2 0 q) fun a => ?_
  match a with
  | ⟨0, _⟩ => exact (if_pos rfl).symm
  | ⟨1, _⟩ => exact (if_neg hn).symm

/-- A column repeated across n columns holds c(p, 0) at (p, q). -/
theorem cols_of_col {m n : Nat} (hm : m ≠ 1) (h : (⟨2, ![m, 1]⟩ : Shape).BroadcastsInDim ⟨2, ![m, n]⟩ ![0, 1])
    (c : (⟨2, ![m, 1]⟩ : Shape).Idx → α) (p : Fin m) (q : Fin n) :
    broadcastInDim ⟨2, ![m, n]⟩ ![0, 1] h c (ix2 p q) = c (ix2 p 0) := by
  refine broadcastInDim_apply _ h c _ (ix2 p 0) fun a => ?_
  match a with
  | ⟨0, _⟩ => exact (if_neg hm).symm
  | ⟨1, _⟩ => exact (if_pos rfl).symm

/-- A vector reshaped to a row keeps its order: the row holds v(q) at (0, q). -/
theorem row_of_vec_cast {n : Nat} (h : (⟨1, ![n]⟩ : Shape).ShapeCasts ⟨2, ![1, n]⟩)
    (v : (⟨1, ![n]⟩ : Shape).Idx → α) (z : Fin 1) (q : Fin n) :
    shapeCast ⟨2, ![1, n]⟩ v h (ix2 z q) = v (ix1 q) := by
  refine shapeCast_apply v h _ (ix1 q) ?_
  rw [Shape.rowMajor_val_one, Shape.rowMajor_val_two]
  have hz : z.val = 0 := by omega
  show q.val = z.val * n + q.val
  rw [hz, Nat.zero_mul, Nat.zero_add]

/-- A vector reshaped to a column keeps its order: the column holds v(p) at (p, 0). -/
theorem col_of_vec_cast {m : Nat} (h : (⟨1, ![m]⟩ : Shape).ShapeCasts ⟨2, ![m, 1]⟩)
    (v : (⟨1, ![m]⟩ : Shape).Idx → α) (p : Fin m) (z : Fin 1) :
    shapeCast ⟨2, ![m, 1]⟩ v h (ix2 p z) = v (ix1 p) := by
  refine shapeCast_apply v h _ (ix1 p) ?_
  rw [Shape.rowMajor_val_one, Shape.rowMajor_val_two]
  have hz : z.val = 0 := by omega
  show p.val = p.val * 1 + z.val
  rw [hz, Nat.mul_one, Nat.add_zero]

end Cert.LibRowsCols

end
-- ==== Proof.Payload.lean ====
/-
  The value the kernel's body stores for one batch entry, read at a codeword k and a feature d.

  The body computes, from the entry's rows x_n (n < 4096, 256 features each), the codewords c_k (k < 32), a second
  copy cb_k of them, the row of their squared norms c2_k and the row of factors s_k:
    the rows' squared norms     sum_d x_n d * x_n d,
    the cross terms             sum_d x_n d * cb_k d                          (a contraction into zeros),
    the logits                  (0 - s_k) * ((|x_n|^2 - 2 * <x_n, cb_k>) + c2_k),
    each row's maximum against minus infinity, the exponentials of the logits less that maximum, their row sums,
    the quotients w_n k of each exponential by its row's sum,
    the weighted sums           sum_n w_n k * x_n d                           (a contraction over the rows into zeros),
    the total weights           sum_n w_n k, laid as a column and repeated across the features,
  and stores (sum_n w_n k * x_n d) - (sum_n w_n k) * c_k d. Between these stages it only re-lays vectors: a leading unit
  axis dropped or added, a vector made a column, a column or a row repeated, a row transposed to a column. Each stage is
  named below as the body's own term over variables and read at coordinates; a re-laying re-reads its operand, a sum over
  one axis is the sum over that axis's coordinate, a contraction over one axis is the sum of the products over it, and
  0 - s = -s. Chained, the stored value is the entry's encoding as the specification writes it.
-/
import proofs.«180133_j76888504533767_2_alg».proof.Proof.Gen.KernelIdeal.Skeleton
import proofs.«180133_j76888504533767_2_alg».proof.Proof.Spec
import proofs.«180133_j76888504533767_2_alg».proof.Proof.LibRowsCols
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Encode.Payload

open Idealize.ShloMosaic Idealize.ShloMosaic.ValueIdx Cert.KernelIdeal Cert.KernelIdeal.Gen

open Cert.Encode

/-! ## The vectors the kernel's body computes, stage by stage

Each is the body's term for that stage, over variables of the shapes the stage reads. -/

/-- The loaded slab with its leading unit axis dropped: a 4096 × 256 matrix of rows. -/
def rowsV (v11 : Vec Ideal S1x4096x256 .f32) : FVec Ideal S4096x256 .f32 :=
  shapeCast S4096x256 v11 shapeCasts_S1x4096x256_S4096x256

/-- A vector of 4096 entries laid as a column and repeated across the 32 columns. -/
def colV (v : FVec Ideal S4096 .f32) : FVec Ideal S4096x32 .f32 :=
  broadcastTo S4096x32 (shapeCast S4096x1 v shapeCasts_S4096_S4096x1) broadcasts_S4096x1_S4096x32

/-- A row of 32 entries repeated down the 4096 rows. -/
def rowV (r : FVec Ideal S1x32 .f32) : FVec Ideal S4096x32 .f32 :=
  broadcastTo S4096x32 r broadcasts_S1x32_S4096x32

/-- The squared norms of the rows: the sum over the features of the squares. -/
def sqV (x : FVec Ideal S4096x256 .f32) : FVec Ideal S4096 .f32 :=
  multiReduction (F := Ideal) .add [1] S4096 (mulf x x) 0x00000000#32 reduces_S4096x256_S4096 (.inl rfl) rfl

/-- The cross terms: rows against codewords, contracted over the features, accumulated into zeros. -/
def crossV (x : FVec Ideal S4096x256 .f32) (cb : FVec Ideal S32x256 .bf16) : FVec Ideal S4096x32 .f32 :=
  matmul dot_S4096x256_S32x256_S4096x32_1_1_0_0_n_n none (truncf .bf16 x bitsLt_bf16_f32) cb
    (constant S4096x32 .f32 0x00000000#32)

/-- The logits: (0 - s_k) times the expanded squared distance. -/
def logitV (x : FVec Ideal S4096x256 .f32) (cb : FVec Ideal S32x256 .bf16) (c2 s : FVec Ideal S1x32 .f32) :
    FVec Ideal S4096x32 .f32 :=
  mulf (rowV (subf (broadcast S1x32 (Scalar.ofBits .f32 0x00000000#32)) s))
    (addf (subf (colV (sqV x)) (mulf (broadcast S4096x32 (Scalar.ofBits .f32 0x40000000#32)) (crossV x cb))) (rowV c2))

/-- The row maxima, taken against minus infinity. -/
def maxV (L : FVec Ideal S4096x32 .f32) : FVec Ideal S4096 .f32 :=
  maximumf (broadcast S4096 (Scalar.ofBits .f32 0xFF800000#32))
    (multiReduction (F := Ideal) .maximumf [1] S4096 L 0xFF800000#32 reduces_S4096x32_S4096 (.inl rfl) rfl)

/-- The exponentials of the logits less their row maximum. -/
def expoV (L : FVec Ideal S4096x32 .f32) : FVec Ideal S4096x32 .f32 := exp (subf L (colV (maxV L)))

/-- The row sums of the exponentials. -/
def denomV (E : FVec Ideal S4096x32 .f32) : FVec Ideal S4096 .f32 :=
  multiReduction (F := Ideal) .add [1] S4096 E 0x00000000#32 reduces_S4096x32_S4096 (.inl rfl) rfl

/-- The soft assignments: each exponential over its row's sum. -/
def weightV (E : FVec Ideal S4096x32 .f32) : FVec Ideal S4096x32 .f32 := divf E (colV (denomV E))

/-- The weighted sums of the rows: weights against rows, contracted over the 4096 rows. -/
def aggV (W : FVec Ideal S4096x32 .f32) (x : FVec Ideal S4096x256 .f32) : FVec Ideal S32x256 .f32 :=
  matmul dot_S4096x32_S4096x256_S32x256_0_0_1_1_n_n none (truncf .bf16 W bitsLt_bf16_f32) (truncf .bf16 x bitsLt_bf16_f32)
    (constant S32x256 .f32 0x00000000#32)

/-- The total weight of each codeword, laid as a column and repeated across the 256 features. -/
def massV (W : FVec Ideal S4096x32 .f32) : FVec Ideal S32x256 .f32 :=
  broadcastTo S32x256
    (transpose S32x1 [1, 0]
      (shapeCast S1x32 (multiReduction (F := Ideal) .add [0] S32 W 0x00000000#32 reduces_S4096x32_S32 (.inl rfl) rfl)
        shapeCasts_S32_S1x32)
      transposes_S1x32_p1_0_S32x1)
    broadcasts_S32x1_S32x256

/-- The stored value is the composition of the stages. -/
theorem pay_eq (v0 : Vec Ideal S32x256 .f32) (v2 : FVec Ideal S32x256 .bf16) (v4 v6 : FVec Ideal S1x32 .f32)
    (v11 : Vec Ideal S1x4096x256 .f32) :
    k0_pay4 (F := Ideal) v0 v2 v4 v6 v11
      = shapeCast S1x32x256
          (subf (aggV (weightV (expoV (logitV (rowsV v11) v2 v4 v6))) (rowsV v11))
            (mulf (massV (weightV (expoV (logitV (rowsV v11) v2 v4 v6)))) v0))
          shapeCasts_S32x256_S1x32x256 := rfl

/-! ## The layout stages read at coordinates -/

theorem rowsV_apply (v11 : Vec Ideal S1x4096x256 .f32) (n : Fin 4096) (d : Fin 256) :
    rowsV v11 (ix2 n d) = v11 (ix3 0 n d) :=
  shapeCast_1ab_ab_apply v11 _ n d

theorem colV_apply (v : FVec Ideal S4096 .f32) (n : Fin 4096) (k : Fin 32) : colV v (ix2 n k) = v (ix1 n) := by
  unfold colV
  refine (broadcastTo_apply _ broadcasts_S4096x1_S4096x32 (ix2 n k) (ix2 n (0 : Fin 1)) fun a => ?_).trans
    (Cert.LibRowsCols.col_of_vec_cast shapeCasts_S4096_S4096x1 v n 0)
  match a with
  | ⟨0, _⟩ => rfl
  | ⟨1, _⟩ => rfl

theorem rowV_apply (r : FVec Ideal S1x32 .f32) (n : Fin 4096) (k : Fin 32) : rowV r (ix2 n k) = r (ix2 0 k) :=
  broadcastTo_1b_ab_apply r _ n k

/-! ## The sums over the features -/

theorem sqV_apply (x : FVec Ideal S4096x256 .f32) (n : Fin 4096) :
    sqV x (ix1 n) = sqNorm (fun n d => x (ix2 n d)) n := by
  unfold sqV sqNorm
  refine (Ideal.multiReduction_add_single (mulf x x) 0x00000000#32 reduces_S4096x256_S4096 (.inl rfl) rfl (ix1 n)).trans ?_
  refine Finset.sum_congr rfl fun d _ => ?_
  exact congrArg (fun i => x i * x i)
    (funext fun a => Fin.ext (by match a with | ⟨0, _⟩ => rfl | ⟨1, _⟩ => rfl))

/-- The first contraction: axis 1 of the rows against axis 1 of the codewords. -/
abbrev D1 : DotDims S4096x256 S32x256 S4096x32 := dot_S4096x256_S32x256_S4096x32_1_1_0_0_n_n

theorem D1_lhs0 (j : S4096x32.Idx) (q : D1.contr.Idx) : (D1.lhsIdx j q 0).val = (j 0).val := by
  unfold DotDims.lhsIdx
  rw [dif_neg (show ¬(0 : Fin S4096x256.rank) ∈ D1.lhsBatch by decide),
    dif_pos (show (0 : Fin S4096x256.rank) ∈ D1.lhsNonContracting by decide)]
  rfl

theorem D1_lhs1 (j : S4096x32.Idx) (q : D1.contr.Idx) : (D1.lhsIdx j q 1).val = (q ⟨0, by decide⟩).val :=
  D1.lhsIdx_val_of_single rfl j q

theorem D1_rhs0 (j : S4096x32.Idx) (q : D1.contr.Idx) : (D1.rhsIdx j q 0).val = (j 1).val := by
  unfold DotDims.rhsIdx
  rw [dif_neg (show ¬(0 : Fin S32x256.rank) ∈ D1.rhsBatch by decide),
    dif_pos (show (0 : Fin S32x256.rank) ∈ D1.rhsNonContracting by decide)]
  rfl

theorem D1_rhs1 (j : S4096x32.Idx) (q : D1.contr.Idx) : (D1.rhsIdx j q 1).val = (q ⟨0, by decide⟩).val :=
  D1.rhsIdx_val_of_single rfl j q

theorem crossV_apply (x : FVec Ideal S4096x256 .f32) (cb : FVec Ideal S32x256 .bf16) (n : Fin 4096) (k : Fin 32) :
    crossV x cb (ix2 n k) = cross (fun n d => x (ix2 n d)) (fun k d => cb (ix2 k d)) n k := by
  unfold crossV cross
  refine (Ideal.matmul_constant_zero_apply D1 none (truncf .bf16 x bitsLt_bf16_f32) cb (ix2 n k)).trans ?_
  rw [← Equiv.sum_comp (contrEquiv1 D1 256 rfl rfl).symm]
  refine Finset.sum_congr rfl fun d _ => ?_
  have hd := contrEquiv1_symm_val D1 256 rfl rfl d
  have el : D1.lhsIdx (ix2 n k) ((contrEquiv1 D1 256 rfl rfl).symm d) = ix2 n d := funext fun a => Fin.ext (by
    match a with
    | ⟨0, _⟩ => exact D1_lhs0 _ _
    | ⟨1, _⟩ => exact (D1_lhs1 _ _).trans hd)
  have er : D1.rhsIdx (ix2 n k) ((contrEquiv1 D1 256 rfl rfl).symm d) = ix2 k d := funext fun a => Fin.ext (by
    match a with
    | ⟨0, _⟩ => exact D1_rhs0 _ _
    | ⟨1, _⟩ => exact (D1_rhs1 _ _).trans hd)
  rw [el, er]
  rfl

/-! ## The logits, their row maxima, and the soft assignment -/

theorem logitV_apply (x : FVec Ideal S4096x256 .f32) (cb : FVec Ideal S32x256 .bf16) (c2 s : FVec Ideal S1x32 .f32)
    (n : Fin 4096) (k : Fin 32) :
    logitV x cb c2 s (ix2 n k)
      = logit (fun n d => x (ix2 n d)) (fun k d => cb (ix2 k d)) (fun k => c2 (ix2 0 k)) (fun k => s (ix2 0 k)) n k := by
  unfold logitV logit
  show rowV (subf (broadcast S1x32 (Scalar.ofBits .f32 0x00000000#32)) s) (ix2 n k)
      * ((colV (sqV x) (ix2 n k) - two * crossV x cb (ix2 n k)) + rowV c2 (ix2 n k)) = _
  rw [rowV_apply, rowV_apply, colV_apply, sqV_apply, crossV_apply]
  show (Ideal.ofBits .f32 0x00000000#32 - s (ix2 0 k)) * _ = _
  rw [Ideal.ofBits_zero_f32, zero_sub]

theorem maxV_apply (L : FVec Ideal S4096x32 .f32) (n : Fin 4096) :
    maxV L (ix1 n) = max negInf ((Finset.univ : Finset (Fin 32)).fold max negInf (fun k => L (ix2 n k))) := by
  unfold maxV
  refine congrArg (max negInf) ?_
  refine (Ideal.multiReduction_maximumf_single L 0xFF800000#32 reduces_S4096x32_S4096 (.inl rfl) rfl (ix1 n)).trans ?_
  refine congrArg (fun f => (Finset.univ : Finset (Fin 32)).fold max negInf f) ?_
  exact funext fun k => congrArg L
    (funext fun a => Fin.ext (by match a with | ⟨0, _⟩ => rfl | ⟨1, _⟩ => rfl))

theorem denomV_apply (E : FVec Ideal S4096x32 .f32) (n : Fin 4096) :
    denomV E (ix1 n) = ∑ k : Fin 32, E (ix2 n k) := by
  unfold denomV
  refine (Ideal.multiReduction_add_single E 0x00000000#32 reduces_S4096x32_S4096 (.inl rfl) rfl (ix1 n)).trans ?_
  refine Finset.sum_congr rfl fun k _ => ?_
  exact congrArg E (funext fun a => Fin.ext (by match a with | ⟨0, _⟩ => rfl | ⟨1, _⟩ => rfl))

section Soft
variable (x : FVec Ideal S4096x256 .f32) (cb : FVec Ideal S32x256 .bf16) (c2 s : FVec Ideal S1x32 .f32)

theorem rowMax_apply (n : Fin 4096) :
    maxV (logitV x cb c2 s) (ix1 n)
      = rowMax (fun n d => x (ix2 n d)) (fun k d => cb (ix2 k d)) (fun k => c2 (ix2 0 k)) (fun k => s (ix2 0 k)) n := by
  rw [maxV_apply]
  unfold rowMax
  refine congrArg (max negInf) (congrArg (fun f => (Finset.univ : Finset (Fin 32)).fold max negInf f) ?_)
  exact funext fun k => logitV_apply x cb c2 s n k

theorem expoV_apply (n : Fin 4096) (k : Fin 32) :
    expoV (logitV x cb c2 s) (ix2 n k)
      = expo (fun n d => x (ix2 n d)) (fun k d => cb (ix2 k d)) (fun k => c2 (ix2 0 k)) (fun k => s (ix2 0 k)) n k := by
  unfold expoV expo
  show Ideal.exp (logitV x cb c2 s (ix2 n k) - colV (maxV (logitV x cb c2 s)) (ix2 n k)) = _
  rw [colV_apply, rowMax_apply, logitV_apply]

theorem denom_apply (n : Fin 4096) :
    denomV (expoV (logitV x cb c2 s)) (ix1 n)
      = denom (fun n d => x (ix2 n d)) (fun k d => cb (ix2 k d)) (fun k => c2 (ix2 0 k)) (fun k => s (ix2 0 k)) n := by
  rw [denomV_apply]
  unfold denom
  exact Finset.sum_congr rfl fun k _ => expoV_apply x cb c2 s n k

theorem weightV_apply (n : Fin 4096) (k : Fin 32) :
    weightV (expoV (logitV x cb c2 s)) (ix2 n k)
      = weight (fun n d => x (ix2 n d)) (fun k d => cb (ix2 k d)) (fun k => c2 (ix2 0 k)) (fun k => s (ix2 0 k)) n k := by
  unfold weightV weight
  show Ideal.div (expoV (logitV x cb c2 s) (ix2 n k)) (colV (denomV (expoV (logitV x cb c2 s))) (ix2 n k)) = _
  rw [colV_apply, denom_apply, expoV_apply]

end Soft

/-! ## The sums over the rows, and the stored value -/

/-- The second contraction: axis 0 of the weights against axis 0 of the rows. -/
abbrev D2 : DotDims S4096x32 S4096x256 S32x256 := dot_S4096x32_S4096x256_S32x256_0_0_1_1_n_n

theorem D2_lhs0 (j : S32x256.Idx) (q : D2.contr.Idx) : (D2.lhsIdx j q 0).val = (q ⟨0, by decide⟩).val :=
  D2.lhsIdx_val_of_single rfl j q

theorem D2_lhs1 (j : S32x256.Idx) (q : D2.contr.Idx) : (D2.lhsIdx j q 1).val = (j 0).val := by
  unfold DotDims.lhsIdx
  rw [dif_neg (show ¬(1 : Fin S4096x32.rank) ∈ D2.lhsBatch by decide),
    dif_pos (show (1 : Fin S4096x32.rank) ∈ D2.lhsNonContracting by decide)]
  rfl

theorem D2_rhs0 (j : S32x256.Idx) (q : D2.contr.Idx) : (D2.rhsIdx j q 0).val = (q ⟨0, by decide⟩).val :=
  D2.rhsIdx_val_of_single rfl j q

theorem D2_rhs1 (j : S32x256.Idx) (q : D2.contr.Idx) : (D2.rhsIdx j q 1).val = (j 1).val := by
  unfold DotDims.rhsIdx
  rw [dif_neg (show ¬(1 : Fin S4096x256.rank) ∈ D2.rhsBatch by decide),
    dif_pos (show (1 : Fin S4096x256.rank) ∈ D2.rhsNonContracting by decide)]
  rfl

theorem aggV_apply (W : FVec Ideal S4096x32 .f32) (x : FVec Ideal S4096x256 .f32) (k : Fin 32) (d : Fin 256) :
    aggV W x (ix2 k d) = ∑ n : Fin 4096, W (ix2 n k) * x (ix2 n d) := by
  unfold aggV
  refine (Ideal.matmul_constant_zero_apply D2 none (truncf .bf16 W bitsLt_bf16_f32) (truncf .bf16 x bitsLt_bf16_f32)
    (ix2 k d)).trans ?_
  rw [← Equiv.sum_comp (contrEquiv1 D2 4096 rfl rfl).symm]
  refine Finset.sum_congr rfl fun n _ => ?_
  have hn := contrEquiv1_symm_val D2 4096 rfl rfl n
  have el : D2.lhsIdx (ix2 k d) ((contrEquiv1 D2 4096 rfl rfl).symm n) = ix2 n k := funext fun a => Fin.ext (by
    match a with
    | ⟨0, _⟩ => exact (D2_lhs0 _ _).trans hn
    | ⟨1, _⟩ => exact D2_lhs1 _ _)
  have er : D2.rhsIdx (ix2 k d) ((contrEquiv1 D2 4096 rfl rfl).symm n) = ix2 n d := funext fun a => Fin.ext (by
    match a with
    | ⟨0, _⟩ => exact (D2_rhs0 _ _).trans hn
    | ⟨1, _⟩ => exact D2_rhs1 _ _)
  rw [el, er]
  rfl

theorem massV_apply (W : FVec Ideal S4096x32 .f32) (k : Fin 32) (d : Fin 256) :
    massV W (ix2 k d) = ∑ n : Fin 4096, W (ix2 n k) := by
  unfold massV
  refine (broadcastTo_apply _ broadcasts_S32x1_S32x256 (ix2 k d) (ix2 k (0 : Fin 1)) fun a => ?_).trans ?_
  · match a with
    | ⟨0, _⟩ => rfl
    | ⟨1, _⟩ => rfl
  refine (transpose_ix2_apply _ transposes_S1x32_p1_0_S32x1 k (0 : Fin 1)).trans ?_
  refine (shapeCast_a_1a_apply _ shapeCasts_S32_S1x32 (0 : Fin 1) k).trans ?_
  refine (Ideal.multiReduction_add_single W 0x00000000#32 reduces_S4096x32_S32 (.inl rfl) rfl (ix1 k)).trans ?_
  refine Finset.sum_congr rfl fun n _ => ?_
  exact congrArg W (funext fun a => Fin.ext (by match a with | ⟨0, _⟩ => rfl | ⟨1, _⟩ => rfl))

/-- The value the kernel stores for one batch entry, at codeword k and feature d, is the entry's encoding there. -/
theorem payload_apply (v0 : Vec Ideal S32x256 .f32) (v2 : FVec Ideal S32x256 .bf16) (v4 v6 : FVec Ideal S1x32 .f32)
    (v11 : Vec Ideal S1x4096x256 .f32) (k : Fin 32) (d : Fin 256) :
    k0_pay4 (F := Ideal) v0 v2 v4 v6 v11 (ix3 0 k d)
      = slabEncode (fun n d => v11 (ix3 0 n d)) (fun k d => v0 (ix2 k d)) (fun k d => v2 (ix2 k d))
          (fun k => v4 (ix2 0 k)) (fun k => v6 (ix2 0 k)) k d := by
  have hX : (fun (n : Fin 4096) (d : Fin 256) => rowsV v11 (ix2 n d)) = fun n d => v11 (ix3 0 n d) :=
    funext fun n => funext fun d => rowsV_apply v11 n d
  have hW : ∀ n : Fin 4096, weightV (expoV (logitV (rowsV v11) v2 v4 v6)) (ix2 n k)
      = weight (fun n d => v11 (ix3 0 n d)) (fun k d => v2 (ix2 k d)) (fun k => v4 (ix2 0 k)) (fun k => v6 (ix2 0 k)) n k :=
    fun n => by rw [weightV_apply, hX]
  rw [pay_eq]
  refine (shapeCast_ab_1ab_apply _ shapeCasts_S32x256_S1x32x256 0 k d).trans ?_
  show aggV (weightV (expoV (logitV (rowsV v11) v2 v4 v6))) (rowsV v11) (ix2 k d)
      - massV (weightV (expoV (logitV (rowsV v11) v2 v4 v6))) (ix2 k d) * v0 (ix2 k d) = _
  rw [aggV_apply, massV_apply]
  unfold slabEncode
  refine congrArg₂ (· - ·) (Finset.sum_congr rfl fun n _ => ?_)
    (congrArg (· * v0 (ix2 k d)) (Finset.sum_congr rfl fun n _ => hW n))
  rw [hW n, rowsV_apply]

end Cert.Encode.Payload

end
-- ==== Proof.HostPrefix.lean ====
/-
  The three arrays the host writes before the region, read at coordinates.

  Before its one region the kernel's main function runs six host operations on its arguments. Three of their
  results are staged by the region's windows: a copy of the codewords in a narrower float format, which at the
  ideal values is the codewords themselves; the codewords' squared norms, summed over the feature axis from the
  zero word and laid out as a 1 x 32 row; and the smoothing factors laid out as a 1 x 32 row. Laying a vector
  out as a one-row matrix keeps the row-major position of every entry, so entry (0, k) of the row is entry k of
  the vector.
-/
import proofs.«180133_j76888504533767_2_alg».proof.Proof.Gen.KernelIdeal.Frame.Runs
import proofs.«180133_j76888504533767_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.Encode.Host

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ) (c : Dev nD)

/-- A vector of 32 entries laid out as a 1 x 32 row holds entry k at (0, k). -/
theorem row_at (v : S32.Idx → EReal) (k : Fin 32) :
    shapeCast S1x32 v Facts₀.shapeCasts_S32_S1x32 (ix2 (0 : Fin 1) k) = v (ix1 k) := by
  refine shapeCast_apply v Facts₀.shapeCasts_S32_S1x32 _ (ix1 k) ?_
  rw [Shape.rowMajor_val_one, Shape.rowMajor_val_two]
  show k.val = (0 : Nat) * 32 + k.val
  rw [Nat.zero_mul, Nat.zero_add]

/-- The narrowed copy of the codewords is the codewords. -/
theorem V_copy (k : Fin 32) (d : Fin 256) :
    (V m c main_v4 : S32x256.Idx → EReal) (ix2 k d)
      = (m ((c : Thread nD τ).loc main_arg1) : S32x256.Idx → EReal) (ix2 k d) := by
  have e : (V m c main_v4 : S32x256.Idx → EReal)
      = (truncf (F := Ideal) .bf16 (m ((c : Thread nD τ).loc main_arg1) : FVec Ideal S32x256 .f32)
          Facts₀.bitsLt_bf16_f32 : FVec Ideal S32x256 .bf16) := by
    dsimp only [Gen.V, Gen.hostOps0]; after_results
  rw [e]; rfl

/-- The sum over the feature axis, from the zero word, of an array's squares: the squared norms of its rows. -/
theorem norms_at (A : FVec Ideal S32x256 .f32) (k : Fin 32) :
    (Host.reduceAdd (F := Ideal) (mulf (F := Ideal) A A) (constant (F := Ideal) S_ .f32 0x00000000#32)
        Facts₀.reducesTo_S32x256_S32_d1 Facts₀.h_S_ : S32.Idx → EReal) (ix1 k)
      = Cert.Encode.codeNorm (fun k d => A (ix2 k d)) k := by
  simp only [Host.reduceAdd, Ideal.hostReduceAdd_def]
  rw [Ideal.hostReduceAdd_single Facts₀.reducesTo_S32x256_S32_d1 (by decide)]
  unfold Cert.Encode.codeNorm
  have z : (constant (F := Ideal) S_ .f32 0x00000000#32 : S_.Idx → EReal) (Shape.Idx.first Facts₀.h_S_) = 0 :=
    Ideal.ofBits_zero_f32
  rw [z, zero_add]
  refine Finset.sum_congr rfl fun d _ => ?_
  have e1 : Shape.Reduces.lift (s := S32x256) (t := S32) (a := (1 : Fin 2)) (by decide) (ix1 k) d = ix2 k d := by
    funext a; match a with | ⟨0, _⟩ => rfl | ⟨1, _⟩ => rfl
  rw [e1]; rfl

/-- The smoothing factors, laid out as a row. -/
theorem V_factors (k : Fin 32) :
    (V m c main_v0 : S1x32.Idx → EReal) (ix2 (0 : Fin 1) k)
      = (m ((c : Thread nD τ).loc main_arg2) : S32.Idx → EReal) (ix1 k) := by
  have e : (V m c main_v0 : S1x32.Idx → EReal)
      = shapeCast S1x32 (m ((c : Thread nD τ).loc main_arg2) : S32.Idx → EReal) Facts₀.shapeCasts_S32_S1x32 := by
    dsimp only [Gen.V, Gen.hostOps0]; after_results; rfl
  rw [e, row_at]

/-- The codewords' squared norms, summed over the feature axis and laid out as a row. -/
theorem V_norms (k : Fin 32) :
    (V m c main_v3 : S1x32.Idx → EReal) (ix2 (0 : Fin 1) k)
      = Cert.Encode.codeNorm
          (fun k d => (m ((c : Thread nD τ).loc main_arg1) : S32x256.Idx → EReal) (ix2 k d)) k := by
  have e : (V m c main_v3 : S1x32.Idx → EReal)
      = shapeCast S1x32
          (Host.reduceAdd (F := Ideal)
            (mulf (F := Ideal) (m ((c : Thread nD τ).loc main_arg1) : FVec Ideal S32x256 .f32)
              (m ((c : Thread nD τ).loc main_arg1) : FVec Ideal S32x256 .f32))
            (constant (F := Ideal) S_ .f32 0x00000000#32)
            Facts₀.reducesTo_S32x256_S32_d1 Facts₀.h_S_ : S32.Idx → EReal)
          Facts₀.shapeCasts_S32_S1x32 := by
    dsimp only [Gen.V, Gen.hostOps0]; after_results; rfl
  rw [e, row_at]
  exact norms_at (m ((c : Thread nD τ).loc main_arg1) : FVec Ideal S32x256 .f32) k

end Cert.Encode.Host

end
-- ==== Proof.Geometry.lean ====
/-
  Where the region's windows sit in their arrays.

  The grid has 32 points. At point t the window of the rows takes slabs 2t and 2t + 1 of the 64 batch entries, whole
  on the other two axes, and the window of the result takes the same two slabs of the result array; the four
  windows of the codewords, their narrowed copy, their squared norms and the smoothing factors take their whole
  array at every point. A block's coordinate on an axis is the block index times the block's extent plus the
  coordinate inside the block, so entry (o, k, d) of the result's block at point t is entry (2t + o, k, d) of the
  result, an input block read at coordinates is the array read at the shifted coordinates, and every index of
  the result lies in the block of exactly the point t with 2t <= b < 2t + 2, b its batch coordinate.
-/
import proofs.«180133_j76888504533767_2_alg».proof.Proof.PatchedIdealValue
import Idealize.ShloMosaic.Lib.ValueIdx
import Idealize.ShloMosaic.Lib.Pipeline.Value

noncomputable section

namespace Cert.Encode.Geom

open Cert.KernelIdeal Cert.KernelIdeal.Gen Cert.KernelIdeal.GenP Idealize.ShloMosaic Idealize.ShloMosaic.TcCoe
  Idealize.SL.Sem Idealize.ShloMosaic.ValueIdx

variable {F : FTy → Type} [FloatOps F]
variable (m : (ℓ : Loc nD τ sig) → Buf (Elt F) ℓ) (c : Dev nD)

/-- The block indices of the six windows at every grid point: the two batched windows are at block t on the batch
    axis and block 0 on the others, the four whole-array windows at block 0 on both axes. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A grid point is below 32. -/
theorem point_lt (t : Fin cfg0.N) : t.val < 32 := lt_of_lt_of_eq (show t.val < grid0.N from t.isLt) N_0

/-- Slab o of the block at point t is a batch entry. -/
theorem slab_lt (t : Fin cfg0.N) (o : Fin 2) : 2 * t.val + o.val < 64 := by
  have := point_lt t; have := o.isLt; omega

/-- Entry (o, k, d) of the result's block at point t is entry (2t + o, k, d) of the result. -/
theorem emb5 (t : Fin cfg0.N) (o : Fin 2) (k : Fin 32) (d : Fin 256) :
    ((cfg0.win 5).blk t).view.emb (ix3 o k d) = (ix3 ⟨2 * t.val + o.val, slab_lt t o⟩ k d : S64x32x256.Idx) := by
  obtain ⟨_, _, _, e3, e4, e5, _⟩ := idx_facts t
  funext a; apply Fin.ext
  match a with
  | ⟨0, _⟩ => show win0_5.index t (0 : Fin 3) * 2 + 1 * o.val = 2 * t.val + o.val; omega
  | ⟨1, _⟩ => show win0_5.index t (1 : Fin 3) * 32 + 1 * k.val = k.val; omega
  | ⟨2, _⟩ => show win0_5.index t (2 : Fin 3) * 256 + 1 * d.val = d.val; omega

/-! ## The input blocks, read at coordinates -/

/-- The rows' block at point t holds, at (o, n, d), the rows' array at (2t + o, n, d). -/
theorem iblk0 (t : Fin cfg0.N) (o : Fin 2) (n : Fin 4096) (d : Fin 256) :
    iblk m c 0 t (ix3 o n d) = V m c main_arg0 (ix3 ⟨2 * t.val + o.val, slab_lt t o⟩ n d) := by
  obtain ⟨e0, e1, e2, _⟩ := idx_facts t
  show V m c main_arg0 (((cfg0.win 0).blk t).view.emb (ix3 o n d)) = V m c main_arg0 _
  refine congrArg (V m c main_arg0) ?_
  funext a; apply Fin.ext
  match a with
  | ⟨0, _⟩ => show win0_0.index t (0 : Fin 3) * 2 + 1 * o.val = 2 * t.val + o.val; omega
  | ⟨1, _⟩ => show win0_0.index t (1 : Fin 3) * 4096 + 1 * n.val = n.val; omega
  | ⟨2, _⟩ => show win0_0.index t (2 : Fin 3) * 256 + 1 * d.val = d.val; omega

/-- The codewords' block at every point is the codewords' array. -/
theorem iblk1 (t : Fin cfg0.N) (k : Fin 32) (d : Fin 256) :
    iblk m c 1 t (ix2 k d) = V m c main_arg1 (ix2 k d) := by
  obtain ⟨_, _, _, _, _, _, e0, e1, _⟩ := idx_facts t
  show V m c main_arg1 (((cfg0.win 1).blk t).view.emb (ix2 k d)) = V m c main_arg1 _
  refine congrArg (V m c main_arg1) ?_
  funext a; apply Fin.ext
  match a with
  | ⟨0, _⟩ => show win0_1.index t (0 : Fin 2) * 32 + 1 * k.val = k.val; omega
  | ⟨1, _⟩ => show win0_1.index t (1 : Fin 2) * 256 + 1 * d.val = d.val; omega

/-- The narrowed codewords' block at every point is their array. -/
theorem iblk2 (t : Fin cfg0.N) (k : Fin 32) (d : Fin 256) :
    iblk m c 2 t (ix2 k d) = V m c main_v4 (ix2 k d) := by
  obtain ⟨_, _, _, _, _, _, _, _, e0, e1, _⟩ := idx_facts t
  show V m c main_v4 (((cfg0.win 2).blk t).view.emb (ix2 k d)) = V m c main_v4 _
  refine congrArg (V m c main_v4) ?_
  funext a; apply Fin.ext
  match a with
  | ⟨0, _⟩ => show win0_2.index t (0 : Fin 2) * 32 + 1 * k.val = k.val; omega
  | ⟨1, _⟩ => show win0_2.index t (1 : Fin 2) * 256 + 1 * d.val = d.val; omega

/-- The squared norms' block at every point is their row. -/
theorem iblk3 (t : Fin cfg0.N) (k : Fin 32) :
    iblk m c 3 t (ix2 (0 : Fin 1) k) = V m c main_v3 (ix2 (0 : Fin 1) k) := by
  obtain ⟨_, _, _, _, _, _, _, _, _, _, e0, e1, _⟩ := idx_facts t
  show V m c main_v3 (((cfg0.win 3).blk t).view.emb (ix2 (0 : Fin 1) k)) = V m c main_v3 _
  refine congrArg (V m c main_v3) ?_
  funext a; apply Fin.ext
  match a with
  | ⟨0, _⟩ => show win0_3.index t (0 : Fin 2) * 1 + 1 * 0 = 0; omega
  | ⟨1, _⟩ => show win0_3.index t (1 : Fin 2) * 32 + 1 * k.val = k.val; omega

/-- The smoothing factors' block at every point is their row. -/
theorem iblk4 (t : Fin cfg0.N) (k : Fin 32) :
    iblk m c 4 t (ix2 (0 : Fin 1) k) = V m c main_v0 (ix2 (0 : Fin 1) k) := by
  obtain ⟨_, _, _, _, _, _, _, _, _, _, _, _, e0, e1⟩ := idx_facts t
  show V m c main_v0 (((cfg0.win 4).blk t).view.emb (ix2 (0 : Fin 1) k)) = V m c main_v0 _
  refine congrArg (V m c main_v0) ?_
  funext a; apply Fin.ext
  match a with
  | ⟨0, _⟩ => show win0_4.index t (0 : Fin 2) * 1 + 1 * 0 = 0; omega
  | ⟨1, _⟩ => show win0_4.index t (1 : Fin 2) * 32 + 1 * k.val = k.val; omega

/-! ## The result's blocks fill the result -/

/-- An index of the result is in point t's block iff each coordinate is in the block's range on its axis. -/
theorem mem_blk5 (t : Fin cfg0.N) (i : S64x32x256.Idx) :
    i ∈ ((cfg0.win 5).blk t).view.set ↔ ∀ a : Fin 3, win0_5.index t a * S2x32x256.size a ≤ (i a).val
      ∧ (i a).val < win0_5.index t a * S2x32x256.size a + S2x32x256.size a := by
  show i ∈ ((View.whole main_v5).slice (win0_5.rect t)).set ↔ _
  rw [View.set_slice_whole, Rect.mem_set_unit]
  exact Iff.rfl

/-- Every index of the result is in the block of the point that is half its batch coordinate, and that point
    writes its block back. -/
theorem cover5 : ∀ i : S64x32x256.Idx, ∃ t : Fin cfg0.N, (cfg0.win 5).flush t = true
    ∧ i ∈ ((cfg0.win 5).blk t).view.set := by
  intro i
  have hi0 : (i 0).val < 64 := (i 0).isLt
  have hi1 : (i 1).val < 32 := (i 1).isLt
  have hi2 : (i 2).val < 256 := (i 2).isLt
  have hN : (i 0).val / 2 < grid0.N := by rw [N_0]; omega
  refine ⟨⟨(i 0).val / 2, hN⟩, flush0_5 _, ?_⟩
  rw [mem_blk5]
  obtain ⟨_, _, _, e3, e4, e5, _⟩ := idx_facts ⟨(i 0).val / 2, hN⟩
  have e3' : win0_5.index ⟨(i 0).val / 2, hN⟩ (0 : Fin 3) = (i 0).val / 2 := e3
  intro a
  match a with
  | ⟨0, _⟩ =>
    show win0_5.index ⟨(i 0).val / 2, hN⟩ (0 : Fin 3) * 2 ≤ (i 0).val
      ∧ (i 0).val < win0_5.index ⟨(i 0).val / 2, hN⟩ (0 : Fin 3) * 2 + 2
    omega
  | ⟨1, _⟩ =>
    show win0_5.index ⟨(i 0).val / 2, hN⟩ (1 : Fin 3) * 32 ≤ (i 1).val
      ∧ (i 1).val < win0_5.index ⟨(i 0).val / 2, hN⟩ (1 : Fin 3) * 32 + 32
    omega
  | ⟨2, _⟩ =>
    show win0_5.index ⟨(i 0).val / 2, hN⟩ (2 : Fin 3) * 256 ≤ (i 2).val
      ∧ (i 2).val < win0_5.index ⟨(i 0).val / 2, hN⟩ (2 : Fin 3) * 256 + 256
    omega

/-- Every index of the result is (2t + o, k, d) for a point t and a slab o of its block. -/
theorem split5 (i : S64x32x256.Idx) :
    ∃ (t : Fin cfg0.N) (o : Fin 2), i = ix3 ⟨2 * t.val + o.val, slab_lt t o⟩ (i 1) (i 2) := by
  have hi0 : (i 0).val < 64 := (i 0).isLt
  have hN : (i 0).val / 2 < grid0.N := by rw [N_0]; omega
  refine ⟨⟨(i 0).val / 2, hN⟩, ⟨(i 0).val % 2, by omega⟩, ?_⟩
  funext a
  match a with
  | ⟨0, _⟩ => exact Fin.ext (show (i 0).val = 2 * ((i 0).val / 2) + (i 0).val % 2 by omega)
  | ⟨1, _⟩ => rfl
  | ⟨2, _⟩ => rfl

end Cert.Encode.Geom

end
-- ==== Proof.KernelValue.lean ====
/-
  The idealized kernel's result array is the residual-softmax encoding of its arguments.

  At grid point t the body is called on block t of the rows (batch entries 2t and 2t + 1), on the whole codeword array,
  on its copy in a narrower float format (the same extended reals), on the row of the codewords' squared norms (a host
  sum before the region) and on the row of factors (a reshape of the third argument). By the block reading, the payload
  read at an index and those five identifications, what the point writes back is block t of the encoding of the whole
  batch; the 32 blocks tile the result array; so the array ends at the encoding everywhere.
-/
import proofs.«180133_j76888504533767_2_alg».proof.Proof.PatchedIdealValue
import proofs.«180133_j76888504533767_2_alg».proof.Proof.Block
import proofs.«180133_j76888504533767_2_alg».proof.Proof.Payload
import proofs.«180133_j76888504533767_2_alg».proof.Proof.HostPrefix
import proofs.«180133_j76888504533767_2_alg».proof.Proof.Geometry
import proofs.«180133_j76888504533767_2_alg».proof.Proof.Spec
import Idealize.ShloMosaic.Lib.ValueIdx
import Idealize.ShloMosaic.Lib.Pipeline.Value

set_option maxRecDepth 16384

noncomputable section

namespace Cert.Encode.KernelValue

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Encode

variable (m : (ℓ : Loc nD τ sig) → Buf (Elt Ideal) ℓ) (ρ : Dev nD → PrngReg)

/-- The encoding of the whole batch, of the three argument arrays as launched on core `c`. -/
abbrev result (c : Dev nD) : S64x32x256.Idx → EReal :=
  encodeArr (m ((c : Thread nD τ).loc main_arg0)) (m ((c : Thread nD τ).loc main_arg1)) (m ((c : Thread nD τ).loc main_arg2))

/-- What grid point `t` writes back is block `t` of the encoding: entry (o, k, d) of the block is the encoding of batch
    entry 2t + o at (k, d), because slab o of the rows' block is that entry's rows, the two codeword blocks are the
    codewords (the second a copy in a narrower format, the same extended reals), and the two rows are the codewords'
    squared norms, summed before the region, and the factors. -/
theorem flushed_eq (c : Dev nD) (t : Fin cfg0.N) :
    (dats m 0 c).flushed 5 t = ((cfg0.win 5).blk t).view.read (Elt Ideal) (result m c) := by
  rw [Cert.KernelIdeal.ValueP.flushed5_A]
  funext j
  obtain ⟨o, k, d, rfl⟩ : ∃ (o : Fin 2) (k : Fin 32) (d : Fin 256), j = ix3 o k d := ⟨j 0, j 1, j 2, eq_ix3 j⟩
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (iblk m c 3 t) (iblk m c 4 t) (ix3 o k d)
      = result m c (((cfg0.win 5).blk t).view.emb (ix3 o k d))
  rw [Cert.Encode.Block.out_slab, Cert.Encode.Payload.payload_apply, Cert.Encode.Geom.emb5]
  have e0 : (fun (n : Fin 4096) (d : Fin 256) => iblk m c 0 t (ix3 o (ix3 (0 : Fin 1) n d 1) (ix3 (0 : Fin 1) n d 2)))
      = fun n d => m ((c : Thread nD τ).loc main_arg0) (ix3 ⟨2 * t.val + o.val, Cert.Encode.Geom.slab_lt t o⟩ n d) :=
    funext fun n => funext fun d => (Cert.Encode.Geom.iblk0 m c t o n d).trans (congrFun (V_main_arg0 m c) _)
  have e1 : (fun (k : Fin 32) (d : Fin 256) => iblk m c 1 t (ix2 k d)) = fun k d => m ((c : Thread nD τ).loc main_arg1) (ix2 k d) :=
    funext fun k => funext fun d => (Cert.Encode.Geom.iblk1 m c t k d).trans (congrFun (V_main_arg1 m c) _)
  have e2 : (fun (k : Fin 32) (d : Fin 256) => k0_pay1 (iblk m c 2 t) (ix2 k d)) = fun k d => m ((c : Thread nD τ).loc main_arg1) (ix2 k d) :=
    funext fun k => funext fun d => by
      unfold k0_pay1
      rw [shapeCast_self]
      exact (Cert.Encode.Geom.iblk2 m c t k d).trans (Cert.Encode.Host.V_copy m c k d)
  have e3 : (fun (k : Fin 32) => k0_pay2 (iblk m c 3 t) (ix2 (0 : Fin 1) k)) = codeNorm (fun k d => m ((c : Thread nD τ).loc main_arg1) (ix2 k d)) :=
    funext fun k => by
      unfold k0_pay2
      rw [shapeCast_self]
      exact (Cert.Encode.Geom.iblk3 m c t k).trans (Cert.Encode.Host.V_norms m c k)
  have e4 : (fun (k : Fin 32) => k0_pay3 (iblk m c 4 t) (ix2 (0 : Fin 1) k)) = fun k => m ((c : Thread nD τ).loc main_arg2) (ix1 k) :=
    funext fun k => by
      unfold k0_pay3
      rw [shapeCast_self]
      exact (Cert.Encode.Geom.iblk4 m c t k).trans (Cert.Encode.Host.V_factors m c k)
  rw [e0, e1, e2, e3, e4]
  rfl

/-- The result array after the run: the blocks written back tile it (point t writes batch entries 2t and 2t + 1), so it
    holds the encoding everywhere. -/
theorem final (c : Dev nD) : (dats m 0 c).arrAt 5 cfg0.N = result m c :=
  (dats m 0 c).arrAt_eq_of_cover 5 (result m c) (fun t _ => flushed_eq m c t) Cert.Encode.Geom.cover5

/-- The kernel's run, with its result array named as the encoding of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.ValueP.run_blocks m ρ)

end Cert.Encode.KernelValue

end
-- ==== Proof.RefValue.lean ====
/-
  The reference program's result, read index by index, is the residual-softmax encoding of the specification.

  Each intermediate array of the reference is read at explicit coordinates (batch entry b, row n, codeword k,
  feature d) and identified with the specification's function of the same name: the rows' squared norms, the
  codewords' squared norms, the cross term, the logits, the row maximum, the exponentials, the softmax
  denominators, the weights, the weighted sum of rows and the column sums of the weights. Every step is a
  re-indexing: a broadcast reads its operand at the coordinates it keeps, a sum over one axis is the sum over
  that axis's coordinate, and the maximum over the codeword axis is the fold of max over that coordinate. The
  only values used are that the word of zero is zero (the initial value of every sum) and that the host's
  negation, division and exponential are the ideal ones; the words of 2.0 and of minus infinity stay as words.
-/
import proofs.«180133_j76888504533767_2_alg».proof.Proof.Gen.ReferenceIdeal.Read
import proofs.«180133_j76888504533767_2_alg».proof.Proof.Spec
import Idealize.ShloMosaic.Lib.ValueIdx
import Idealize.ShloMosaic.PureOps.Ideal.Laws
import Idealize.ShloMosaic.PureOps.Reduce

noncomputable section

open scoped BigOperators

namespace Cert.Encode.Ref

open Cert.ReferenceIdeal Cert.ReferenceIdeal.Gen Cert.ReferenceIdeal.Read Idealize.ShloMosaic
  Idealize.ShloMosaic.ValueIdx

variable (x0 : (⟨S64x4096x256, .f32⟩ : BufTy).Contents (Elt Ideal))
  (x1 : (⟨S32x256, .f32⟩ : BufTy).Contents (Elt Ideal))
  (x2 : (⟨S32, .f32⟩ : BufTy).Contents (Elt Ideal))

/-- The rows, by coordinates. -/
abbrev X : Fin 64 → Fin 4096 → Fin 256 → EReal := fun b n d => x0 (ix3 b n d)
/-- The codewords, by coordinates. -/
abbrev C : Fin 32 → Fin 256 → EReal := fun k d => x1 (ix2 k d)
/-- The smoothing factors, by coordinate. -/
abbrev S : Fin 32 → EReal := fun k => x2 (ix1 k)

/-- The word of zero, read where a sum starts, is zero. -/
theorem zero_word : (FloatOps.ofBits (F := Ideal) .f32 0x00000000#32 : EReal) = 0 := Ideal.ofBits_zero_f32

/-! ## The squared norms -/

/-- The rows' squared norms. -/
theorem v1_at (b : Fin 64) (n : Fin 4096) :
    val_main_v1 (F := Ideal) x0 (ix2 b n) = Cert.Encode.sqNorm (X x0 b) n := by
  rw [val_main_v1_apply, val_main_cst_apply, zero_word, zero_add]
  unfold Cert.Encode.sqNorm
  refine Finset.sum_congr rfl fun d _ => ?_
  rw [val_main_v0_apply]
  have e : idx_main_v1 (ix2 b n) d = ix3 b n d := by
    funext a; match a with | ⟨0, _⟩ => rfl | ⟨1, _⟩ => rfl | ⟨2, _⟩ => rfl
  rw [e]; rfl

/-- The same, kept with a unit last axis. -/
theorem v2_at (b : Fin 64) (n : Fin 4096) (z : Fin 1) :
    val_main_v2 (F := Ideal) x0 (ix3 b n z) = Cert.Encode.sqNorm (X x0 b) n := by
  rw [val_main_v2_apply]
  have e : idx_main_v2 (ix3 b n z) = ix2 b n := by
    funext a; match a with | ⟨0, _⟩ => rfl | ⟨1, _⟩ => rfl
  rw [e, v1_at]

/-- The codewords' squared norms. -/
theorem v4_at (k : Fin 32) :
    val_main_v4 (F := Ideal) x1 (ix1 k) = Cert.Encode.codeNorm (C x1) k := by
  rw [val_main_v4_apply, val_main_cst_0_apply, zero_word, zero_add]
  unfold Cert.Encode.codeNorm
  refine Finset.sum_congr rfl fun d _ => ?_
  rw [val_main_v3_apply]
  have e : idx_main_v4 (ix1 k) d = ix2 k d := by
    funext a; match a with | ⟨0, _⟩ => rfl | ⟨1, _⟩ => rfl
  rw [e]; rfl

/-! ## The cross term and the logits -/

/-- The cross term: the rows against the codewords. -/
theorem v5_at (b : Fin 64) (n : Fin 4096) (k : Fin 32) :
    val_main_v5 (F := Ideal) x0 x1 (ix3 b n k) = Cert.Encode.cross (X x0 b) (C x1) n k := by
  rw [val_main_v5_apply]
  unfold Cert.Encode.cross
  refine Finset.sum_congr rfl fun d _ => ?_
  have el : lidx_main_v5 (ix3 b n k) d = ix3 b n d := by
    funext a; match a with | ⟨0, _⟩ => rfl | ⟨1, _⟩ => rfl | ⟨2, _⟩ => rfl
  have er : ridx_main_v5 (ix3 b n k) d = ix2 k d := by
    funext a; match a with | ⟨0, _⟩ => rfl | ⟨1, _⟩ => rfl
  rw [el, er]

/-- The logits: minus the factor, times the expanded squared distance. -/
theorem v16_at (b : Fin 64) (n : Fin 4096) (k : Fin 32) :
    val_main_v16 (F := Ideal) x0 x1 x2 (ix3 b n k)
      = Cert.Encode.logit (X x0 b) (C x1) (Cert.Encode.codeNorm (C x1)) (S x2) n k := by
  have e8 : idx_main_v8 (ix3 b n k) = ix3 b n (0 : Fin 1) := by
    funext a; match a with | ⟨0, _⟩ => rfl | ⟨1, _⟩ => rfl | ⟨2, _⟩ => rfl
  have e11 : idx_main_v10 (idx_main_v11 (ix3 b n k)) = ix1 k := by
    funext a; match a with | ⟨0, _⟩ => rfl
  have e15 : idx_main_v14 (idx_main_v15 (ix3 b n k)) = ix1 k := by
    funext a; match a with | ⟨0, _⟩ => rfl
  rw [val_main_v16_apply, val_main_v15_apply, val_main_v14_apply, val_main_v13_apply, e15,
    val_main_v12_apply, val_main_v9_apply, val_main_v8_apply, e8, v2_at,
    val_main_v7_apply, val_main_v6_apply, val_main_cst_1_apply, v5_at,
    val_main_v11_apply, val_main_v10_apply, e11, v4_at]
  rfl

/-! ## The row maximum -/

/-- The maximum over the codeword axis is the fold of max over the codeword coordinate, from the word of minus
    infinity. -/
theorem v17_at (b : Fin 64) (n : Fin 4096) :
    val_main_v17 (F := Ideal) x0 x1 x2 (ix2 b n)
      = (Finset.univ : Finset (Fin 32)).fold max Cert.Encode.negInf
          (fun k => Cert.Encode.logit (X x0 b) (C x1) (Cert.Encode.codeNorm (C x1)) (S x2) n k) := by
  unfold val_main_v17
  rw [Host.reduce_eq_fold_single (FloatOps.maximumf (F := Ideal) (φ := .f32)) (val_main_v16 (F := Ideal) x0 x1 x2)
    (val_main_cst_2 (F := Ideal)) Facts₀.reducesTo_S64x4096x32_S64x4096_d2 (by decide) Facts₀.h_S_ (ix2 b n)]
  rw [val_main_cst_2_apply]
  refine congrArg (fun f : Fin 32 → EReal => (Finset.univ : Finset (Fin 32)).fold max Cert.Encode.negInf f)
    (funext fun (k : Fin 32) => ?_)
  have e : Shape.Reduces.lift (s := S64x4096x32) (t := S64x4096) (a := (2 : Fin 3)) (by decide) (ix2 b n) k = ix3 b n k := by
    funext a; match a with | ⟨0, _⟩ => rfl | ⟨1, _⟩ => rfl | ⟨2, _⟩ => rfl
  show val_main_v16 (F := Ideal) x0 x1 x2 _ = _
  rw [e, v16_at]

/-- The row maximum, taken once more against the word of minus infinity. -/
theorem v19_at (b : Fin 64) (n : Fin 4096) :
    val_main_v19 (F := Ideal) x0 x1 x2 (ix2 b n)
      = Cert.Encode.rowMax (X x0 b) (C x1) (Cert.Encode.codeNorm (C x1)) (S x2) n := by
  rw [val_main_v19_apply, val_main_v18_apply, val_main_cst_3_apply, v17_at]
  rfl

/-! ## The softmax -/

/-- The exponentials of the logits less the row maximum. -/
theorem v23_at (b : Fin 64) (n : Fin 4096) (k : Fin 32) :
    val_main_v23 (F := Ideal) x0 x1 x2 (ix3 b n k)
      = Cert.Encode.expo (X x0 b) (C x1) (Cert.Encode.codeNorm (C x1)) (S x2) n k := by
  have e21 : idx_main_v20 (idx_main_v21 (ix3 b n k)) = ix2 b n := by
    funext a; match a with | ⟨0, _⟩ => rfl | ⟨1, _⟩ => rfl
  rw [val_main_v23_apply, val_main_v22_apply, v16_at, val_main_v21_apply, val_main_v20_apply, e21, v19_at]
  rfl

/-- The softmax denominators. -/
theorem v24_at (b : Fin 64) (n : Fin 4096) :
    val_main_v24 (F := Ideal) x0 x1 x2 (ix2 b n)
      = Cert.Encode.denom (X x0 b) (C x1) (Cert.Encode.codeNorm (C x1)) (S x2) n := by
  rw [val_main_v24_apply, val_main_cst_4_apply, zero_word, zero_add]
  unfold Cert.Encode.denom
  refine Finset.sum_congr rfl fun k _ => ?_
  have e : idx_main_v24 (ix2 b n) k = ix3 b n k := by
    funext a; match a with | ⟨0, _⟩ => rfl | ⟨1, _⟩ => rfl | ⟨2, _⟩ => rfl
  rw [e, v23_at]

/-- The weights: each exponential over its row's denominator. -/
theorem v27_at (b : Fin 64) (n : Fin 4096) (k : Fin 32) :
    val_main_v27 (F := Ideal) x0 x1 x2 (ix3 b n k)
      = Cert.Encode.weight (X x0 b) (C x1) (Cert.Encode.codeNorm (C x1)) (S x2) n k := by
  have e26 : idx_main_v25 (idx_main_v26 (ix3 b n k)) = ix2 b n := by
    funext a; match a with | ⟨0, _⟩ => rfl | ⟨1, _⟩ => rfl
  rw [val_main_v27_apply, v23_at, val_main_v26_apply, val_main_v25_apply, e26, v24_at]
  rfl

/-! ## The aggregate -/

/-- The weighted sum of the rows. -/
theorem v28_at (b : Fin 64) (k : Fin 32) (d : Fin 256) :
    val_main_v28 (F := Ideal) x0 x1 x2 (ix3 b k d)
      = ∑ n : Fin 4096, Cert.Encode.weight (X x0 b) (C x1) (Cert.Encode.codeNorm (C x1)) (S x2) n k * X x0 b n d := by
  rw [val_main_v28_apply]
  refine Finset.sum_congr rfl fun n _ => ?_
  have el : lidx_main_v28 (ix3 b k d) n = ix3 b n k := by
    funext a; match a with | ⟨0, _⟩ => rfl | ⟨1, _⟩ => rfl | ⟨2, _⟩ => rfl
  have er : ridx_main_v28 (ix3 b k d) n = ix3 b n d := by
    funext a; match a with | ⟨0, _⟩ => rfl | ⟨1, _⟩ => rfl | ⟨2, _⟩ => rfl
  rw [el, er, v27_at]

/-- The column sums of the weights. -/
theorem v29_at (b : Fin 64) (k : Fin 32) :
    val_main_v29 (F := Ideal) x0 x1 x2 (ix2 b k)
      = ∑ n : Fin 4096, Cert.Encode.weight (X x0 b) (C x1) (Cert.Encode.codeNorm (C x1)) (S x2) n k := by
  rw [val_main_v29_apply, val_main_cst_5_apply, zero_word, zero_add]
  refine Finset.sum_congr rfl fun n _ => ?_
  have e : idx_main_v29 (ix2 b k) n = ix3 b n k := by
    funext a; match a with | ⟨0, _⟩ => rfl | ⟨1, _⟩ => rfl | ⟨2, _⟩ => rfl
  rw [e, v27_at]

/-- The result at coordinates: the weighted sum less the column sum times the codeword. -/
theorem v35_at (b : Fin 64) (k : Fin 32) (d : Fin 256) :
    val_main_v35 (F := Ideal) x0 x1 x2 (ix3 b k d)
      = Cert.Encode.encode (X x0) (C x1) (S x2) b k d := by
  have e32 : idx_main_v30 (idx_main_v32 (ix3 b k d)) = ix2 b k := by
    funext a; match a with | ⟨0, _⟩ => rfl | ⟨1, _⟩ => rfl
  have e33 : idx_main_v31 (idx_main_v33 (ix3 b k d)) = ix2 k d := by
    funext a; match a with | ⟨0, _⟩ => rfl | ⟨1, _⟩ => rfl
  rw [val_main_v35_apply, v28_at, val_main_v34_apply, val_main_v32_apply, val_main_v30_apply, e32, v29_at,
    val_main_v33_apply, val_main_v31_apply, e33]
  rfl

/-! ## The statement -/

/-- The reference's result is the encoding of its three arguments. -/
theorem ref_is_encode :
    val_main_v35 (F := Ideal) x0 x1 x2 = Cert.Encode.encodeArr x0 x1 x2 := by
  funext i
  obtain ⟨b, k, d, rfl⟩ : ∃ b k d, i = ix3 b k d := ⟨_, _, _, eq_ix3 i⟩
  rw [v35_at]
  rfl

end Cert.Encode.Ref

end
-- ==== Proof.lean ====
/- The proof of `Cert.Claim` (proofs.«180133_j76888504533767_2_alg».proof.Defs).

   Both programs compute the residual-softmax encoding of a batch: for batch entry b with rows x_n, codewords c_k and
   factors s_k, the soft assignment w(n, k) = softmax over k of (-s_k) * ((|x_n|^2 - 2 <x_n, c_k>) + |c_k|^2) and the
   result (sum_n w(n, k) * x_n) - (sum_n w(n, k)) * c_k. On the extended reals the two are the same composition of
   operations, written once as `Cert.Encode.encodeArr` (Proof/Spec.lean); the only differences are how sums, the row
   maximum and the two contractions are spelt, a subtraction from zero for a negation, and the kernel's tiling: one grid
   point per pair of batch entries, a two-trip loop over the pair. No finiteness is used.
     * the idealized kernel ends with its result array at `encodeArr` of its arguments: Proof/KernelValue.lean, over the body's
       stored value read at an index (Proof/Payload.lean), the two loop trips' pieces read back (Proof/TripIdeal.lean,
       Proof/Block.lean), the host operations before the region (Proof/HostPrefix.lean) and the windows' geometry
       (Proof/Geometry.lean);
     * the reference's result is `encodeArr` of its arguments: Proof/RefValue.lean, over the reference's run read back one
       operation at a time;
     * the three frames: the two kernels' from the frame run, the reference's from its run with the result dropped;
     * the idealization rewrote nothing, so `preserves` is trivial. -/
import proofs.«180133_j76888504533767_2_alg».proof.Defs
import proofs.«180133_j76888504533767_2_alg».proof.Proof.Gen.Kernel
import proofs.«180133_j76888504533767_2_alg».proof.Proof.Gen.KernelIdeal
import proofs.«180133_j76888504533767_2_alg».proof.Proof.Gen.ReferenceIdeal
import proofs.«180133_j76888504533767_2_alg».proof.Proof.Gen.Pre_finite_inputs
import proofs.«180133_j76888504533767_2_alg».proof.Proof.Gen.ReferenceIdeal.Run
import proofs.«180133_j76888504533767_2_alg».proof.Proof.Gen.ReferenceIdeal.Read
import proofs.«180133_j76888504533767_2_alg».proof.Proof.PatchedBitsFrame
import proofs.«180133_j76888504533767_2_alg».proof.Proof.KernelValue
import proofs.«180133_j76888504533767_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference runs and leaves its arguments unchanged: its run, with the clause about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, the idealized kernel and the idealized reference both end with the
    encoding of those arguments as their result. -/
theorem algebraic : Cert.algebraic_KernelIdeal_ReferenceIdeal := by
  intro m ρ m' ρ' _ hagree
  refine ⟨fun c => Cert.Encode.KernelValue.result m c, Cert.Encode.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.Encode.Ref.ref_is_encode, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
